-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x64 : Shape := ⟨4, ![16, 128, 128, 64]⟩
abbrev S_ : Shape := ⟨0, ![]⟩

class Facts : Prop where
  bcast_S_S16x128x128x64 : S_.BroadcastsInDim S16x128x128x64 (![] : Fin 0 → Fin S16x128x128x64.rank)
  reducesTo_S16x128x128x64_S_d0_1_2_3 : S16x128x128x64.ReducesTo [0, 1, 2, 3] S_
  h_S_ : 0 < S_.numel

variable [Facts]

def fn {F : FTy → Type} [FloatOps F] (main_arg0 : FVec F S16x128x128x64 .f32) (main_arg1 : IVec S16x128x128x64 32) : IVec S_ 1 :=
  let main_v0 : FVec F S16x128x128x64 .f32 := Host.absf main_arg0
  let main_cst : FVec F S_ .f32 := constant S_ .f32 0x7F800000#32
  let main_v1 : FVec F S16x128x128x64 .f32 := broadcastInDim S16x128x128x64 ![] bcast_S_S16x128x128x64 main_cst
  let main_v2 : IVec S16x128x128x64 1 := cmpf .olt main_v0 main_v1
  let main_c : IVec S_ 1 := constantI S_ 1 1#1
  let main_v3 : IVec S_ 1 := (fun x v => Host.reduce IntOp.andi x v reducesTo_S16x128x128x64_S_d0_1_2_3 h_S_) main_v2 main_c
  let main_c_0 : IVec S_ 32 := constantI S_ 32 0#32
  let main_v4 : IVec S16x128x128x64 32 := broadcastInDim S16x128x128x64 ![] bcast_S_S16x128x128x64 main_c_0
  let main_v5 : IVec S16x128x128x64 1 := cmpi .sge main_arg1 main_v4
  let main_c_1 : IVec S_ 32 := constantI S_ 32 4194304#32
  let main_v6 : IVec S16x128x128x64 32 := broadcastInDim S16x128x128x64 ![] bcast_S_S16x128x128x64 main_c_1
  let main_v7 : IVec S16x128x128x64 1 := cmpi .slt main_arg1 main_v6
  let main_v8 : IVec S16x128x128x64 1 := andi main_v5 main_v7
  let main_c_2 : IVec S_ 1 := constantI S_ 1 1#1
  let main_v9 : IVec S_ 1 := (fun x v => Host.reduce IntOp.andi x v reducesTo_S16x128x128x64_S_d0_1_2_3 h_S_) main_v8 main_c_2
  let main_v10 : IVec S_ 1 := andi main_v3 main_v9
  main_v10
-- ==== Kernel.lean ====
abbrev S16x128x128x64 : Shape := ⟨4, ![16, 128, 128, 64]⟩
abbrev S1x32x128x64 : Shape := ⟨4, ![1, 32, 128, 64]⟩
abbrev S32x128x64 : Shape := ⟨3, ![32, 128, 64]⟩
abbrev S16777216 : Shape := ⟨1, ![16777216]⟩
abbrev S_ : Shape := ⟨0, ![]⟩
abbrev S67108864 : Shape := ⟨1, ![67108864]⟩
abbrev S16777216x1 : Shape := ⟨2, ![16777216, 1]⟩
abbrev S16x256x256x64 : Shape := ⟨4, ![16, 256, 256, 64]⟩

abbrev nBuf : Space → Nat
  | .hbm => 17
  | .vmem => 4
  | .smem => 0
  | _ => 0

abbrev bufTy : (tb : Table) → Fin (tcTables nBuf tb) → BufTy
  | .hbm, ⟨0, _⟩ => ⟨S16x128x128x64, .f32⟩
  | .hbm, ⟨1, _⟩ => ⟨S16x128x128x64, .i32⟩
  | .hbm, ⟨2, _⟩ => ⟨S16x128x128x64, .i32⟩
  | .hbm, ⟨3, _⟩ => ⟨S16777216, .i32⟩
  | .hbm, ⟨4, _⟩ => ⟨S16777216, .f32⟩
  | .hbm, ⟨5, _⟩ => ⟨S_, .f32⟩
  | .hbm, ⟨6, _⟩ => ⟨S67108864, .f32⟩
  | .hbm, ⟨7, _⟩ => ⟨S_, .i32⟩
  | .hbm, ⟨8, _⟩ => ⟨S16777216, .i32⟩
  | .hbm, ⟨9, _⟩ => ⟨S16777216, .i1⟩
  | .hbm, ⟨10, _⟩ => ⟨S_, .i32⟩
  | .hbm, ⟨11, _⟩ => ⟨S16777216, .i32⟩
  | .hbm, ⟨12, _⟩ => ⟨S16777216, .i32⟩
  | .hbm, ⟨13, _⟩ => ⟨S16777216, .i32⟩
  | .hbm, ⟨14, _⟩ => ⟨S16777216x1, .i32⟩
  | .hbm, ⟨15, _⟩ => ⟨S67108864, .f32⟩
  | .hbm, ⟨16, _⟩ => ⟨S16x256x256x64, .f32⟩
  | .local _ .vmem, ⟨0, _⟩ => ⟨S1x32x128x64, .i32⟩
  | .local _ .vmem, ⟨1, _⟩ => ⟨S1x32x128x64, .i32⟩
  | .local _ .vmem, ⟨2, _⟩ => ⟨S1x32x128x64, .i32⟩
  | .local _ .vmem, ⟨3, _⟩ => ⟨S1x32x128x64, .i32⟩
  | _, _ => ⟨S16x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x128x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x32x128x64_S1x32x128x64_0_0_0_0 : ∀ a, (![0, 0, 0, 0] : Fin 4 → Nat) a + S1x32x128x64.size a ≤ S1x32x128x64.size a
  h_S1x32x128x64 : 0 < S1x32x128x64.numel
  shapeCasts_S1x32x128x64_S32x128x64 : S1x32x128x64.ShapeCasts S32x128x64
  iota_S32x128x64_d2_w32 : S32x128x64.Iotas .tc 32 [2]
  natLt_1_32 : 1 < 32
  shapeCasts_S32x128x64_S1x32x128x64 : S32x128x64.ShapeCasts S1x32x128x64
  shapeCasts_S16x128x128x64_S16777216 : S16x128x128x64.ShapeCasts S16777216
  bcast_S_S67108864 : S_.BroadcastsInDim S67108864 (![] : Fin 0 → Fin S67108864.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S67108864_S16x256x256x64 : S67108864.ShapeCasts S16x256x256x64
  scatter_S67108864_S16777216x1_S16777216_n_0_0_1_wf : ScatterDims.WF S67108864 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128x64.size a ≤ S16x128x128x64.size a
  hwx0_0 : ∀ i : grid0.Coords, EltTy.bits .i32 = 32 ∨ (Rect.block (s := S16x128x128x64) S1x32x128x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128x64.size a ≤ S16x128x128x64.size a
  hwx0_1 : ∀ i : grid0.Coords, EltTy.bits .i32 = 32 ∨ (Rect.block (s := S16x128x128x64) S1x32x128x64.size (cc0_transform_1 i) (hinb0_1 i)).WholeWords (EltTy.packing .i32)

variable [Facts₀]

def scatter_S67108864_S16777216x1_S16777216_n_0_0_1 : ScatterDims S67108864 S16777216x1 S16777216 where
  updateWindowDims := []
  insertedWindowDims := [0]
  scatterDimsToOperandDims := [0]
  indexVectorDim := 1
  wf := scatter_S67108864_S16777216x1_S16777216_n_0_0_1_wf

abbrev win0_0 : Pipeline.Window sig grid0 :=
  Pipeline.Window.ofSpec (Memref.whole main_arg1) S1x32x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x128x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x128x128x64 : Shape := ⟨4, ![16, 128, 128, 64]⟩
abbrev S16777216 : Shape := ⟨1, ![16777216]⟩
abbrev S16 : Shape := ⟨1, ![16]⟩
abbrev S16x1048576 : Shape := ⟨2, ![16, 1048576]⟩
abbrev S_ : Shape := ⟨0, ![]⟩
abbrev S64 : Shape := ⟨1, ![64]⟩
abbrev S1x64 : Shape := ⟨2, ![1, 64]⟩
abbrev S262144x64 : Shape := ⟨2, ![262144, 64]⟩
abbrev S16x256x256x64 : Shape := ⟨4, ![16, 256, 256, 64]⟩
abbrev S16777216x1 : Shape := ⟨2, ![16777216, 1]⟩
abbrev S16777216x4 : Shape := ⟨2, ![16777216, 4]⟩

abbrev nBuf : Space → Nat
  | .hbm => 105
  | .vmem => 0
  | .smem => 0
  | _ => 0

abbrev bufTy : (tb : Table) → Fin (tcTables nBuf tb) → BufTy
  | .hbm, ⟨0, _⟩ => ⟨S16x128x128x64, .f32⟩
  | .hbm, ⟨1, _⟩ => ⟨S16x128x128x64, .i32⟩
  | .hbm, ⟨2, _⟩ => ⟨S16777216, .i32⟩
  | .hbm, ⟨3, _⟩ => ⟨S16, .i32⟩
  | .hbm, ⟨4, _⟩ => ⟨S16x1048576, .i32⟩
  | .hbm, ⟨5, _⟩ => ⟨S16777216, .i32⟩
  | .hbm, ⟨6, _⟩ => ⟨S_, .i32⟩
  | .hbm, ⟨7, _⟩ => ⟨S_, .i32⟩
  | .hbm, ⟨8, _⟩ => ⟨S16777216, .i32⟩
  | .hbm, ⟨9, _⟩ => ⟨S16777216, .i32⟩
  | .hbm, ⟨10, _⟩ => ⟨S16777216, .i32⟩
  | .hbm, ⟨11, _⟩ => ⟨S_, .i32⟩
  | .hbm, ⟨12, _⟩ => ⟨S16777216, .i32⟩
  | .hbm, ⟨13, _⟩ => ⟨S16777216, .i1⟩
  | .hbm, ⟨14, _⟩ => ⟨S16777216, .i32⟩
  | .hbm, ⟨15, _⟩ => ⟨S16777216, .i32⟩
  | .hbm, ⟨16, _⟩ => ⟨S_, .i32⟩
  | .hbm, ⟨17, _⟩ => ⟨S16777216, .i32⟩
  | .hbm, ⟨18, _⟩ => ⟨S16777216, .i1⟩
  | .hbm, ⟨19, _⟩ => ⟨S16777216, .i1⟩
  | .hbm, ⟨20, _⟩ => ⟨S_, .i32⟩
  | .hbm, ⟨21, _⟩ => ⟨S16777216, .i32⟩
  | .hbm, ⟨22, _⟩ => ⟨S16777216, .i32⟩
  | .hbm, ⟨23, _⟩ => ⟨S16777216, .i32⟩
  | .hbm, ⟨24, _⟩ => ⟨S_, .i32⟩
  | .hbm, ⟨25, _⟩ => ⟨S_, .i32⟩
  | .hbm, ⟨26, _⟩ => ⟨S16777216, .i32⟩
  | .hbm, ⟨27, _⟩ => ⟨S16777216, .i32⟩
  | .hbm, ⟨28, _⟩ => ⟨S16777216, .i32⟩
  | .hbm, ⟨29, _⟩ => ⟨S_, .i32⟩
  | .hbm, ⟨30, _⟩ => ⟨S16777216, .i32⟩
  | .hbm, ⟨31, _⟩ => ⟨S16777216, .i1⟩
  | .hbm, ⟨32, _⟩ => ⟨S16777216, .i32⟩
  | .hbm, ⟨33, _⟩ => ⟨S16777216, .i32⟩
  | .hbm, ⟨34, _⟩ => ⟨S_, .i32⟩
  | .hbm, ⟨35, _⟩ => ⟨S16777216, .i32⟩
  | .hbm, ⟨36, _⟩ => ⟨S16777216, .i1⟩
  | .hbm, ⟨37, _⟩ => ⟨S16777216, .i1⟩
  | .hbm, ⟨38, _⟩ => ⟨S_, .i32⟩
  | .hbm, ⟨39, _⟩ => ⟨S16777216, .i32⟩
  | .hbm, ⟨40, _⟩ => ⟨S16777216, .i32⟩
  | .hbm, ⟨41, _⟩ => ⟨S16777216, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S16777216, .i32⟩
  | .hbm, ⟨49, _⟩ => ⟨S16777216, .i32⟩
  | .hbm, ⟨50, _⟩ => ⟨S_, .i32⟩
  | .hbm, ⟨51, _⟩ => ⟨S16777216, .i32⟩
  | .hbm, ⟨52, _⟩ => ⟨S16777216, .i1⟩
  | .hbm, ⟨53, _⟩ => ⟨S_, .i32⟩
  | .hbm, ⟨54, _⟩ => ⟨S16777216, .i32⟩
  | .hbm, ⟨55, _⟩ => ⟨S16777216, .i1⟩
  | .hbm, ⟨56, _⟩ => ⟨S_, .i32⟩
  | .hbm, ⟨57, _⟩ => ⟨S_, .i1⟩
  | .hbm, ⟨58, _⟩ => ⟨S16777216, .i1⟩
  | .hbm, ⟨59, _⟩ => ⟨S16777216, .i1⟩
  | .hbm, ⟨60, _⟩ => ⟨S16777216, .i1⟩
  | .hbm, ⟨61, _⟩ => ⟨S16777216, .i32⟩
  | .hbm, ⟨62, _⟩ => ⟨S16777216, .i32⟩
  | .hbm, ⟨63, _⟩ => ⟨S16777216, .i32⟩
  | .hbm, ⟨64, _⟩ => ⟨S64, .i32⟩
  | .hbm, ⟨65, _⟩ => ⟨S1x64, .i32⟩
  | .hbm, ⟨66, _⟩ => ⟨S262144x64, .i32⟩
  | .hbm, ⟨67, _⟩ => ⟨S16777216, .i32⟩
  | .hbm, ⟨68, _⟩ => ⟨S16777216, .f32⟩
  | .hbm, ⟨69, _⟩ => ⟨S_, .f32⟩
  | .hbm, ⟨70, _⟩ => ⟨S16x256x256x64, .f32⟩
  | .hbm, ⟨71, _⟩ => ⟨S_, .i32⟩
  | .hbm, ⟨72, _⟩ => ⟨S16777216, .i32⟩
  | .hbm, ⟨73, _⟩ => ⟨S16777216, .i1⟩
  | .hbm, ⟨74, _⟩ => ⟨S_, .i32⟩
  | .hbm, ⟨75, _⟩ => ⟨S16777216, .i32⟩
  | .hbm, ⟨76, _⟩ => ⟨S16777216, .i32⟩
  | .hbm, ⟨77, _⟩ => ⟨S16777216, .i32⟩
  | .hbm, ⟨78, _⟩ => ⟨S_, .i32⟩
  | .hbm, ⟨79, _⟩ => ⟨S16777216, .i32⟩
  | .hbm, ⟨80, _⟩ => ⟨S16777216, .i1⟩
  | .hbm, ⟨81, _⟩ => ⟨S_, .i32⟩
  | .hbm, ⟨82, _⟩ => ⟨S16777216, .i32⟩
  | .hbm, ⟨83, _⟩ => ⟨S16777216, .i32⟩
  | .hbm, ⟨84, _⟩ => ⟨S16777216, .i32⟩
  | .hbm, ⟨85, _⟩ => ⟨S_, .i32⟩
  | .hbm, ⟨86, _⟩ => ⟨S16777216, .i32⟩
  | .hbm, ⟨87, _⟩ => ⟨S16777216, .i1⟩
  | .hbm, ⟨88, _⟩ => ⟨S_, .i32⟩
  | .hbm, ⟨89, _⟩ => ⟨S16777216, .i32⟩
  | .hbm, ⟨90, _⟩ => ⟨S16777216, .i32⟩
  | .hbm, ⟨91, _⟩ => ⟨S16777216, .i32⟩
  | .hbm, ⟨92, _⟩ => ⟨S_, .i32⟩
  | .hbm, ⟨93, _⟩ => ⟨S16777216, .i32⟩
  | .hbm, ⟨94, _⟩ => ⟨S16777216, .i1⟩
  | .hbm, ⟨95, _⟩ => ⟨S_, .i32⟩
  | .hbm, ⟨96, _⟩ => ⟨S16777216, .i32⟩
  | .hbm, ⟨97, _⟩ => ⟨S16777216, .i32⟩
  | .hbm, ⟨98, _⟩ => ⟨S16777216, .i32⟩
  | .hbm, ⟨99, _⟩ => ⟨S16777216x1, .i32⟩
  | .hbm, ⟨100, _⟩ => ⟨S16777216x1, .i32⟩
  | .hbm, ⟨101, _⟩ => ⟨S16777216x1, .i32⟩
  | .hbm, ⟨102, _⟩ => ⟨S16777216x1, .i32⟩
  | .hbm, ⟨103, _⟩ => ⟨S16777216x4, .i32⟩
  | .hbm, ⟨104, _⟩ => ⟨S16x256x256x64, .f32⟩
  | _, _ => ⟨S16x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v5 : Ref sig .tc := ⟨.hbm, 41, rfl⟩
abbrev main_c_1 : Ref sig .tc := ⟨.hbm, 42, rfl⟩
abbrev main_call2_v0 : Ref sig .tc := ⟨.hbm, 43, rfl⟩
abbrev main_call2_c : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_c_1 : Ref sig .tc := ⟨.hbm, 50, rfl⟩
abbrev main_call2_v5 : Ref sig .tc := ⟨.hbm, 51, rfl⟩
abbrev main_call2_v6 : Ref sig .tc := ⟨.hbm, 52, rfl⟩
abbrev main_call2_c_2 : Ref sig .tc := ⟨.hbm, 53, rfl⟩
abbrev main_call2_v7 : Ref sig .tc := ⟨.hbm, 54, rfl⟩
abbrev main_call2_v8 : Ref sig .tc := ⟨.hbm, 55, rfl⟩
abbrev main_call2_c_3 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_cst : Ref sig .tc := ⟨.hbm, 69, rfl⟩
abbrev main_v12 : Ref sig .tc := ⟨.hbm, 70, rfl⟩
abbrev main_c_2 : Ref sig .tc := ⟨.hbm, 71, rfl⟩
abbrev main_v13 : Ref sig .tc := ⟨.hbm, 72, rfl⟩
abbrev main_v14 : Ref sig .tc := ⟨.hbm, 73, rfl⟩
abbrev main_c_3 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_c_4 : Ref sig .tc := ⟨.hbm, 78, rfl⟩
abbrev main_v18 : Ref sig .tc := ⟨.hbm, 79, rfl⟩
abbrev main_v19 : Ref sig .tc := ⟨.hbm, 80, rfl⟩
abbrev main_c_5 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_c_6 : Ref sig .tc := ⟨.hbm, 85, rfl⟩
abbrev main_v23 : Ref sig .tc := ⟨.hbm, 86, rfl⟩
abbrev main_v24 : Ref sig .tc := ⟨.hbm, 87, rfl⟩
abbrev main_c_7 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_c_8 : Ref sig .tc := ⟨.hbm, 92, rfl⟩
abbrev main_v28 : Ref sig .tc := ⟨.hbm, 93, rfl⟩
abbrev main_v29 : Ref sig .tc := ⟨.hbm, 94, rfl⟩
abbrev main_c_9 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩

abbrev nD : Nat := 1
abbrev τ : Topo := Topo.v7x

variable {F : FTy → Type} [FloatOps F]

class Facts₀ : Prop where
  shapeCasts_S16x128x128x64_S16777216 : S16x128x128x64.ShapeCasts S16777216
  bcast_S16_S16x1048576_0 : S16.BroadcastsInDim S16x1048576 (![0] : Fin 1 → Fin S16x1048576.rank)
  shapeCasts_S16x1048576_S16777216 : S16x1048576.ShapeCasts S16777216
  bcast_S_S16777216 : S_.BroadcastsInDim S16777216 (![] : Fin 0 → Fin S16777216.rank)
  shapeCasts_S64_S1x64 : S64.ShapeCasts S1x64
  bcast_S1x64_S262144x64_0_1 : S1x64.BroadcastsInDim S262144x64 (![0, 1] : Fin 2 → Fin S262144x64.rank)
  shapeCasts_S262144x64_S16777216 : S262144x64.ShapeCasts S16777216
  bcast_S_S16x256x256x64 : S_.BroadcastsInDim S16x256x256x64 (![] : Fin 0 → Fin S16x256x256x64.rank)
  bcast_S16777216_S16777216x1_0 : S16777216.BroadcastsInDim S16777216x1 (![0] : Fin 1 → Fin S16777216x1.rank)
  concatenates_S16777216x1_S16777216x1_S16777216x1_S16777216x1_S16777216x4_d1 : Shape.Concatenates [S16777216x1, S16777216x1, S16777216x1, S16777216x1] S16777216x4 1
  scatter_S16x256x256x64_S16777216x4_S16777216_n_0123_0123_1_wf : ScatterDims.WF S16x256x256x64 S16777216x4 S16777216 [] [0, 1, 2, 3] [0, 1, 2, 3] 1

variable [Facts₀]

def scatter_S16x256x256x64_S16777216x4_S16777216_n_0123_0123_1 : ScatterDims S16x256x256x64 S16777216x4 S16777216 where
  updateWindowDims := []
  insertedWindowDims := [0, 1, 2, 3]
  scatterDimsToOperandDims := [0, 1, 2, 3]
  indexVectorDim := 1
  wf := scatter_S16x256x256x64_S16777216x4_S16777216_n_0123_0123_1_wf

class Facts : Prop extends Facts₀ where

variable [Facts]
-- ==== Proof.Words.lean ====
/-
  The arithmetic of the unpooling scatter, one index at a time.

  Both programs scatter-add the flattened features into a zero array of 16·256·256·64 entries. The reference sends
  update number j (an entry of the flattened 16×128×128×64 input, row-major) with index word x to the four
  coordinates (j / 1048576, x / 16384, (x / 64) mod 256, j mod 64) of the 16×256×256×64 result; the kernel first
  computes the single word (x / 64)·64 + (j mod 64) + (j / 1048576)·4194304 and scatters along the flattened
  result. For 0 ≤ x < 4194304 the second is the row-major position of the first. This file names the scalar
  words each program computes on 32-bit integers, as the printed operations spell them at one index.
-/
import Idealize.ShloMosaic.PureOps

namespace Cert.Unpool

open Idealize.ShloMosaic

/-- A negative index wraps once by the extent `n` (the host's normalisation before a scatter). -/
def normWord (n x : BitVec 32) : BitVec 32 :=
  Scalar.select (IntOp.cmpi .slt x 0#32) (IntOp.addi x n) x

/-- The sign of a word: 0, 1 or -1. -/
def sgnWord (x : BitVec 32) : BitVec 32 := if x = 0 then 0 else if x.msb then -1 else 1

/-- The kernel's word at one element: the floor quotient of `x` by 64 (truncating division, corrected by one when the
    signs differ and the remainder is not zero), times 64, plus the lane word `cw`, plus the batch word `bw` times
    4194304. -/
def kerWord (bw cw x : BitVec 32) : BitVec 32 :=
  let d := IntOp.divsi .vector x 64#32
  let sg := IntOp.subi ((IntOp.cmpi .sgt x 0#32).setWidth 32) ((IntOp.cmpi .slt x 0#32).setWidth 32)
  let s64 := Scalar.subi (Scalar.extui (Scalar.cmpi .sgt 64#32 0#32)) (Scalar.extui (Scalar.cmpi .slt 64#32 0#32))
  let fix := IntOp.andi (IntOp.cmpi .ne sg s64) (IntOp.cmpi .ne (IntOp.remsi .vector x 64#32) 0#32)
  let q := Scalar.select fix (IntOp.subi d 1#32) d
  IntOp.addi (IntOp.addi (IntOp.muli q 64#32) cw) (Scalar.muli bw 4194304#32)

/-- The reference's floor division of `x` by the constant `d` on the host: the truncating quotient, less one when the
    signs differ and the remainder is not zero. -/
def fdWord (x d : BitVec 32) : BitVec 32 :=
  let q := IntOp.divsi .host x d
  Scalar.select (IntOp.andi (IntOp.cmpi .ne (sgnWord x) (sgnWord d)) (IntOp.cmpi .ne (IntOp.remsi .host x d) 0#32))
    (IntOp.subi q 1#32) q

/-- The reference's floor remainder of `x` by the constant `d` on the host (a zero divisor replaced by one): the
    truncating remainder, plus the divisor when its sign differs from the divisor's and it is not zero. -/
def remWord (x d : BitVec 32) : BitVec 32 :=
  let d' := Scalar.select (IntOp.cmpi .eq d 0#32) 1#32 d
  let r := IntOp.remsi .host x d'
  Scalar.select (IntOp.andi (IntOp.cmpi .ne (IntOp.cmpi .slt r 0#32) (IntOp.cmpi .slt d' 0#32)) (IntOp.cmpi .ne r 0#32))
    (IntOp.addi r d') r

end Cert.Unpool
-- ==== Proof.WordsArith.lean ====
/-
  Word arithmetic of the unpooling scatter on 32-bit integers.

  For an index word x with 0 ≤ x < 4194304 every signed operation the two programs apply to it stays inside the
  non-negative half of the 32-bit range, so signed division and remainder by the positive literals 64, 16384 and 256
  are the unsigned ones, no floor correction is ever taken (the signs agree, or the remainder is zero), and no
  negative-index wrap happens. Each word is then read as a natural number: the kernel's word is
  b·4194304 + (x / 64)·64 + c, the reference's four coordinates are b, x / 16384, (x / 64) mod 256 and c.
-/
import proofs.«103951_j91044716741200_1_alg».proof.Proof.Words

namespace Cert.Unpool

open Idealize.ShloMosaic

/-! ### Non-negative words -/

/-- A word whose signed value lies in [0, 4194304) has a clear sign bit, and its unsigned value obeys the same
    bound. -/
theorem range_facts (x : BitVec 32) (h0 : 0 ≤ x.toInt) (h1 : x.toInt < 4194304) :
    x.msb = false ∧ x.toNat < 4194304 := by
  have hm : x.msb = false := by
    rw [BitVec.msb_eq_toInt]; simp; omega
  refine ⟨hm, ?_⟩
  have := BitVec.toInt_eq_toNat_of_msb hm
  omega

/-- A word below 2³¹ has a clear sign bit. -/
theorem msb_false_of_toNat_lt (x : BitVec 32) (h : x.toNat < 2147483648) : x.msb = false := by
  rw [BitVec.msb_eq_false_iff_two_mul_lt]; omega

/-- A word with a clear sign bit is below 2³¹. -/
theorem toNat_lt_of_msb_false (x : BitVec 32) (h : x.msb = false) : x.toNat < 2147483648 := by
  rw [BitVec.msb_eq_false_iff_two_mul_lt] at h; omega

/-- Signed division of a non-negative word by a positive word is unsigned division: the divisor is neither zero nor
    -1, so no corner is met, and both sign bits are clear. -/
theorem divsi_pos (u : ArithUnit) (x d : BitVec 32) (hx : x.msb = false) (hd : d.msb = false) (hd0 : d ≠ 0#32) :
    IntOp.divsi u x d = x / d := by
  have hc : ¬ IntOp.SDivCorner x d := by
    rintro (h | ⟨_, h⟩)
    · exact hd0 h
    · subst h; revert hd; decide
  unfold IntOp.divsi
  rw [if_neg hc, BitVec.sdiv_eq, hx, hd]
  rfl

/-- Signed remainder of a non-negative word by a positive word is the unsigned remainder. -/
theorem remsi_pos (u : ArithUnit) (x d : BitVec 32) (hx : x.msb = false) (hd : d.msb = false) (hd0 : d ≠ 0#32) :
    IntOp.remsi u x d = x % d := by
  have hc : ¬ IntOp.SDivCorner x d := by
    rintro (h | ⟨_, h⟩)
    · exact hd0 h
    · subst h; revert hd; decide
  unfold IntOp.remsi
  rw [if_neg hc, BitVec.srem_eq, hx, hd]

/-- A word with a clear sign bit is not below zero in the signed order. -/
theorem slt_zero_of_msb_false (x : BitVec 32) (hx : x.msb = false) : x.slt 0#32 = false := by
  rw [BitVec.slt_eq_decide]
  have := BitVec.toInt_nonneg_of_msb_false hx
  simp; omega

/-- A non-negative index is not wrapped. -/
theorem normWord_pos (n x : BitVec 32) (hx : x.msb = false) : normWord n x = x := by
  unfold normWord Scalar.select IntOp.cmpi
  simp only [slt_zero_of_msb_false x hx]
  rfl

/-- If a word reads as the natural number N < 2³¹, the normalised index has signed value N. -/
theorem toInt_normWord_of_toNat (n W : BitVec 32) (N : Nat) (h : W.toNat = N) (hN : N < 2147483648) :
    (normWord n W).toInt = (N : Int) := by
  have hm := msb_false_of_toNat_lt W (h ▸ hN)
  rw [normWord_pos n W hm, BitVec.toInt_eq_toNat_of_msb hm, h]

/-! ### The one-bit words of the corrections -/

/-- A non-zero word with a clear sign bit has sign 1. -/
theorem sgnWord_pos (d : BitVec 32) (hd : d.msb = false) (hd0 : d ≠ 0#32) : sgnWord d = 1#32 := by
  unfold sgnWord
  rw [if_neg (show ¬ d = 0 from hd0), hd]; rfl

theorem cmpi_ne_self (a : BitVec 32) : IntOp.cmpi .ne a a = 0#1 := by
  simp [IntOp.cmpi]

theorem cmpi_ne_self1 (a : BitVec 1) : IntOp.cmpi .ne a a = 0#1 := by
  simp [IntOp.cmpi]

theorem andi_zero_left (a : BitVec 1) : IntOp.andi 0#1 a = 0#1 := by
  simp [IntOp.andi]

theorem andi_zero_right (a : BitVec 1) : IntOp.andi a 0#1 = 0#1 := by
  simp [IntOp.andi]

theorem select_zero {α : Type} (a b : α) : Scalar.select 0#1 a b = b := by
  simp [Scalar.select]

/-! ### The three composite words in closed form -/

/-- Floor division of a non-negative word by a positive word is the unsigned quotient: for x = 0 the remainder is
    zero, otherwise both signs are 1; either way the correction is not taken. -/
theorem fdWord_pos (x d : BitVec 32) (hx : x.msb = false) (hd : d.msb = false) (hd0 : d ≠ 0#32) :
    fdWord x d = x / d := by
  unfold fdWord
  simp only [divsi_pos .host x d hx hd hd0, remsi_pos .host x d hx hd hd0, sgnWord_pos d hd hd0]
  by_cases hx0 : x = 0#32
  · subst hx0
    have : ((0#32 : BitVec 32) % d) = 0#32 := by simp
    rw [this, cmpi_ne_self, andi_zero_right, select_zero]
  · rw [sgnWord_pos x hx hx0, cmpi_ne_self, andi_zero_left, select_zero]

/-- Floor remainder of a non-negative word by a positive word is the unsigned remainder: the remainder and the
    divisor are both non-negative, so no divisor is added back. -/
theorem remWord_pos (y d : BitVec 32) (hy : y.msb = false) (hd : d.msb = false) (hd0 : d ≠ 0#32) :
    remWord y d = y % d := by
  have hsel : Scalar.select (IntOp.cmpi .eq d 0#32) 1#32 d = d := by
    have : (d == 0#32) = false := by simpa using hd0
    simp [Scalar.select, IntOp.cmpi, this]
  have hr : (y % d).msb = false := by
    apply msb_false_of_toNat_lt
    have := toNat_lt_of_msb_false y hy
    rw [BitVec.toNat_umod]
    exact lt_of_le_of_lt (Nat.mod_le _ _) this
  unfold remWord
  simp only [hsel, remsi_pos .host y d hy hd hd0]
  have h1 : IntOp.cmpi .slt (y % d) 0#32 = 0#1 := by
    simp [IntOp.cmpi, slt_zero_of_msb_false _ hr]
  have h2 : IntOp.cmpi .slt d 0#32 = 0#1 := by
    simp [IntOp.cmpi, slt_zero_of_msb_false _ hd]
  rw [h1, h2, cmpi_ne_self1, andi_zero_left, select_zero]

/-- The kernel's word at a non-negative index: the unsigned quotient by 64, times 64, plus the lane word, plus the
    batch word times 4194304. For x = 0 the remainder is zero; otherwise the sign word of x is 1 - 0 = 1, equal to
    the sign word of 64; either way the quotient is not corrected. -/
theorem kerWord_pos (bw cw x : BitVec 32) (hx : x.msb = false) :
    kerWord bw cw x = (x / 64#32) * 64#32 + cw + bw * 4194304#32 := by
  have h64m : (64#32).msb = false := by decide
  have h64 : (64#32) ≠ 0#32 := by decide
  have hs64 : Scalar.subi (Scalar.extui (Scalar.cmpi .sgt 64#32 0#32)) (Scalar.extui (Scalar.cmpi .slt 64#32 0#32)) = 1#32 := by
    decide
  unfold kerWord
  simp only [hs64, divsi_pos .vector x 64#32 hx h64m h64, remsi_pos .vector x 64#32 hx h64m h64]
  have hfix : IntOp.andi (IntOp.cmpi .ne (IntOp.subi ((IntOp.cmpi .sgt x 0#32).setWidth 32) ((IntOp.cmpi .slt x 0#32).setWidth 32)) 1#32)
      (IntOp.cmpi .ne (x % 64#32) 0#32) = 0#1 := by
    by_cases hx0 : x = 0#32
    · subst hx0
      have : ((0#32 : BitVec 32) % 64#32) = 0#32 := by decide
      rw [this, cmpi_ne_self, andi_zero_right]
    · have hlt : IntOp.cmpi .slt x 0#32 = 0#1 := by
        simp [IntOp.cmpi, slt_zero_of_msb_false _ hx]
      have hgt : IntOp.cmpi .sgt x 0#32 = 1#1 := by
        have h0 := BitVec.toInt_nonneg_of_msb_false hx
        have hne : x.toInt ≠ 0 := by
          intro h; apply hx0; apply BitVec.eq_of_toInt_eq; simpa using h
        have hpos : (0#32).slt x = true := by
          rw [BitVec.slt_eq_decide]; simp; omega
        simp [IntOp.cmpi, hpos]
      rw [hlt, hgt]
      have : IntOp.subi ((1#1).setWidth 32) ((0#1).setWidth 32) = 1#32 := by decide
      rw [this, cmpi_ne_self, andi_zero_left]
  rw [hfix, select_zero]
  rfl

/-! ### The words as natural numbers -/

/-- The batch coordinate b < 16 is not wrapped and reads as b. -/
theorem batch_toInt (b : Nat) (hb : b < 16) : (normWord 16#32 (BitVec.ofNat 32 b)).toInt = (b : Int) := by
  apply toInt_normWord_of_toNat
  · rw [BitVec.toNat_ofNat]; omega
  · omega

/-- The row coordinate is x / 16384. -/
theorem row_toInt (x : BitVec 32) (h0 : 0 ≤ x.toInt) (h1 : x.toInt < 4194304) :
    (normWord 256#32 (fdWord x 16384#32)).toInt = ((x.toNat / 16384 : Nat) : Int) := by
  obtain ⟨hm, hx⟩ := range_facts x h0 h1
  apply toInt_normWord_of_toNat
  · rw [fdWord_pos x 16384#32 hm (by decide) (by decide), BitVec.toNat_udiv]; rfl
  · omega

/-- The column coordinate is (x / 64) mod 256. -/
theorem col_toInt (x : BitVec 32) (h0 : 0 ≤ x.toInt) (h1 : x.toInt < 4194304) :
    (normWord 256#32 (remWord (fdWord x 64#32) 256#32)).toInt = ((x.toNat / 64 % 256 : Nat) : Int) := by
  obtain ⟨hm, hx⟩ := range_facts x h0 h1
  have hq : fdWord x 64#32 = x / 64#32 := fdWord_pos x 64#32 hm (by decide) (by decide)
  have hqm : (x / 64#32).msb = false := by
    apply msb_false_of_toNat_lt
    rw [BitVec.toNat_udiv]
    have : (64#32 : BitVec 32).toNat = 64 := rfl
    rw [this]; omega
  apply toInt_normWord_of_toNat
  · rw [hq, remWord_pos _ 256#32 hqm (by decide) (by decide), BitVec.toNat_umod, BitVec.toNat_udiv]; rfl
  · omega

/-- The lane coordinate c < 64 is not wrapped and reads as c. -/
theorem lane_toInt (c : Nat) (hc : c < 64) : (normWord 64#32 (BitVec.ofNat 32 c)).toInt = (c : Int) := by
  apply toInt_normWord_of_toNat
  · rw [BitVec.toNat_ofNat]; omega
  · omega

/-- The closed form of the kernel's word read as a natural number: with b < 16, c < 64 and x < 4194304 the sum
    b·4194304 + (x / 64)·64 + c is below 2³¹, so no product or sum wraps. -/
theorem kerWord_toNat (x : BitVec 32) (b c : Nat) (hx : x.toNat < 4194304) (hb : b < 16) (hc : c < 64) :
    ((x / 64#32) * 64#32 + BitVec.ofNat 32 c + BitVec.ofNat 32 b * 4194304#32).toNat
      = b * 4194304 + x.toNat / 64 * 64 + c := by
  have e64 : (64#32 : BitVec 32).toNat = 64 := by simp
  have e4 : (4194304#32 : BitVec 32).toNat = 4194304 := by simp
  have eb : (BitVec.ofNat 32 b).toNat = b := by rw [BitVec.toNat_ofNat]; omega
  have ec : (BitVec.ofNat 32 c).toNat = c := by rw [BitVec.toNat_ofNat]; omega
  rw [BitVec.toNat_add, BitVec.toNat_add, BitVec.toNat_mul, BitVec.toNat_mul, BitVec.toNat_udiv, e64, e4, eb, ec]
  omega

/-- The kernel's flat index is b·4194304 + (x / 64)·64 + c. -/
theorem kerWord_toInt (x : BitVec 32) (b c : Nat) (h0 : 0 ≤ x.toInt) (h1 : x.toInt < 4194304) (hb : b < 16) (hc : c < 64) :
    (normWord 67108864#32 (kerWord (BitVec.ofNat 32 b) (BitVec.ofNat 32 c) x)).toInt
      = ((b * 4194304 + x.toNat / 64 * 64 + c : Nat) : Int) := by
  obtain ⟨hm, hx⟩ := range_facts x h0 h1
  have hW : (kerWord (BitVec.ofNat 32 b) (BitVec.ofNat 32 c) x).toNat = b * 4194304 + x.toNat / 64 * 64 + c := by
    rw [kerWord_pos _ _ x hm]
    exact kerWord_toNat x b c hx hb hc
  have hN : b * 4194304 + x.toNat / 64 * 64 + c < 2147483648 := by omega
  exact toInt_normWord_of_toNat _ _ _ hW hN

end Cert.Unpool
-- ==== Proof.PreRange.lean ====
/-
  The range of the index words from the precondition.

  The precondition's word is the conjunction of two reductions by "and" over every entry: that every feature is finite,
  and that every index word x satisfies 0 ≤ x and x < 4194304 as signed numbers. When the word is 1 both reductions are
  1, so every entry of the second one's operand is 1, and a signed comparison that is 1 is the inequality of the
  signed values.
-/
import proofs.«103951_j91044716741200_1_alg».proof.Pre_finite_inputs
import proofs.«103951_j91044716741200_1_alg».proof.Proof.Gen.Pre_finite_inputs
import Idealize.ShloMosaic.Lib.ReduceAll
import Idealize.ShloMosaic.Lib.ValueIdx

namespace Cert.Unpool.Pre

open Idealize.ShloMosaic

/-- The rank-0 shape has one index. -/
instance : Subsingleton Cert.Pre_finite_inputs.S_.Idx := ⟨fun a b => funext fun d => d.elim0⟩

theorem toInt_zero : (0#32 : BitVec 32).toInt = 0 := by simp

theorem toInt_bound : (4194304#32 : BitVec 32).toInt = 4194304 := by simp

/-- Under the precondition every index word is, as a signed number, at least 0 and below 4194304. -/
theorem range_of_pre (f : FVec Ideal Cert.Pre_finite_inputs.S16x128x128x64 .f32) (a : IVec Cert.Pre_finite_inputs.S16x128x128x64 32)
    (h : Cert.Pre_finite_inputs.fn (F := Ideal) f a = (fun _ => 1#1)) : ∀ i, 0 ≤ (a i).toInt ∧ (a i).toInt < 4194304 := by
  intro i
  have h0 := congrFun h ValueIdx.ix0
  dsimp only [Cert.Pre_finite_inputs.fn] at h0
  have h1 : IntOp.andi (Host.reduce IntOp.andi _ _ _ _ ValueIdx.ix0) (Host.reduce IntOp.andi _ _ _ _ ValueIdx.ix0) = 1#1 := h0
  obtain ⟨-, h2⟩ := IntOp.andi_eq_one.1 h1
  have h3 := Host.reduce_andi_all _ _ _ _ _ h2 i
  have h4 : IntOp.andi (IntOp.cmpi .sge (a i) 0#32) (IntOp.cmpi .slt (a i) 4194304#32) = 1#1 := h3
  obtain ⟨h5, h6⟩ := IntOp.andi_eq_one.1 h4
  rw [IntOp.cmpi_sge, toInt_zero] at h5
  rw [IntOp.cmpi_slt, toInt_bound] at h6
  exact ⟨h5, h6⟩

end Cert.Unpool.Pre
-- ==== Proof.Scatter.lean ====
/-
  Where a scatter's updates land, and why the flat scatter and the four-axis scatter add up the same entries.

  A scatter-add at exact arithmetic leaves at each element of the operand its old value plus the sum of the updates
  whose landing position is that element. With one scattered axis (the flattened result) update j lands at the
  position its index word names; with four scattered axes and no window, at the coordinates its four index words
  name. If for every update the flat word is the row-major position of the four coordinates, the two landing
  conditions agree element by element, so the two sums range over the same updates.
-/
import Idealize.ShloMosaic.PureOps
import Idealize.ShloMosaic.PureOps.Ideal
import Idealize.ShloMosaic.Lib.ValueIdx
import Idealize.ShloMosaic.Lib.Pipeline.Value

open Idealize.ShloMosaic Idealize.ShloMosaic.ValueIdx

namespace Cert.Unpool

abbrev SU : Shape := ⟨1, ![16777216]⟩
abbrev SF : Shape := ⟨1, ![67108864]⟩
abbrev SO : Shape := ⟨4, ![16, 256, 256, 64]⟩
abbrev SI1 : Shape := ⟨2, ![16777216, 1]⟩
abbrev SI4 : Shape := ⟨2, ![16777216, 4]⟩

/-- An update lands at the element `i` exactly when, on every axis, its window start plus its window coordinate is
    `i`'s coordinate (and is dropped when some axis leaves the operand). -/
theorem resultIdx?_eq_some_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  split
  · rename_i h
    rw [Option.some.injEq]
    constructor
    · intro e a
      have h1 := congrArg Fin.val (congrFun e a)
      have h2 := h a
      simp only at h1
      omega
    · intro e
      funext a
      apply Fin.ext
      have := e a
      simp only
      omega
  · rename_i h
    constructor
    · intro e; cases e
    · intro e
      exfalso
      apply h
      intro a
      have := e a
      have := (i a).isLt
      constructor <;> omega

section flat
variable (wf1 : ScatterDims.WF SF SI1 SU [] [0] [0] 1)

abbrev dF : ScatterDims SF SI1 SU := ⟨[], [0], [0], 1, wf1⟩

theorem siIdx_flat (j : Fin 16777216) (c : Fin 1) : (dF wf1).siIdx (ix1 j) c = ix2 j (0 : Fin 1) := by
  funext b
  match b with
  | ⟨0, _⟩ => rfl
  | ⟨1, _⟩ =>
    apply Fin.ext
    simp [ScatterDims.siIdx]

theorem start_flat {w : Nat} (j : Fin 16777216) (idx : IVec SI1 w) (a : Fin 1) :
    (dF wf1).start (ix1 j) idx a = (idx (ix2 j (0 : Fin 1))).toInt := by
  match a with
  | ⟨0, h0⟩ =>
    unfold ScatterDims.start
    have ha : (⟨0, h0⟩ : Fin 1) ∈ (dF wf1).scatterDimsToOperandDims := List.mem_singleton.2 (Fin.ext rfl)
    rw [dif_pos ha, siIdx_flat]

theorem window_flat (j : Fin 16777216) (a : Fin 1) : (dF wf1).window (ix1 j) a = 0 := by
  match a with
  | ⟨0, h0⟩ =>
    unfold ScatterDims.window
    have ha : ¬ (⟨0, h0⟩ : Fin 1) ∈ (dF wf1).sKept := show ¬ (0 : Fin 1) ∈ Shape.kept SF [0] from by decide
    rw [dif_neg ha]

/-- Along the flattened result an update lands at position `i` exactly when its index word, read signed, is `i`. -/
theorem lands_flat {w : Nat} (j : Fin 16777216) (idx : IVec SI1 w) (i : SF.Idx) :
    (dF wf1).resultIdx? (ix1 j) idx = some i ↔ (idx (ix2 j (0 : Fin 1))).toInt = ((i 0).val : Int) := by
  rw [resultIdx?_eq_some_iff]
  constructor
  · intro h
    have := h 0
    rw [start_flat, window_flat] at this
    simpa using this
  · intro h a
    match a with
    | ⟨0, h0⟩ =>
      rw [start_flat, window_flat]
      simpa using h
end flat

section four
variable (wf4 : ScatterDims.WF SO SI4 SU [] [0, 1, 2, 3] [0, 1, 2, 3] 1)

abbrev dO : ScatterDims SO SI4 SU := ⟨[], [0, 1, 2, 3], [0, 1, 2, 3], 1, wf4⟩

theorem siIdx_four (j : Fin 16777216) (c : Fin 4) : (dO wf4).siIdx (ix1 j) c = ix2 j c := by
  funext b
  match b with
  | ⟨0, _⟩ => rfl
  | ⟨1, _⟩ =>
    apply Fin.ext
    simp [ScatterDims.siIdx]

theorem start_four {w : Nat} (j : Fin 16777216) (idx : IVec SI4 w) (a : Fin 4) :
    (dO wf4).start (ix1 j) idx a = (idx (ix2 j a)).toInt := by
  unfold ScatterDims.start
  have ha : a ∈ (dO wf4).scatterDimsToOperandDims :=
    (show ∀ a : Fin 4, a ∈ ([0, 1, 2, 3] : List (Fin 4)) from by decide) a
  have hi : List.idxOf a (dO wf4).scatterDimsToOperandDims = a.val :=
    (show ∀ a : Fin 4, List.idxOf a ([0, 1, 2, 3] : List (Fin 4)) = a.val from by decide) a
  rw [dif_pos ha, siIdx_four]
  exact congrArg (fun c => (idx (ix2 j c)).toInt) (Fin.ext hi)

theorem window_four (j : Fin 16777216) (a : Fin 4) : (dO wf4).window (ix1 j) a = 0 := by
  unfold ScatterDims.window
  have ha : ¬ a ∈ (dO wf4).sKept :=
    (show ∀ a : Fin 4, ¬ a ∈ Shape.kept SO [0, 1, 2, 3] from by decide) a
  rw [dif_neg ha]

/-- In the four-axis result an update lands at `o` exactly when its four index words, read signed, are `o`'s coordinates. -/
theorem lands_four {w : Nat} (j : Fin 16777216) (idx : IVec SI4 w) (o : SO.Idx) :
    (dO wf4).resultIdx? (ix1 j) idx = some o ↔ ∀ a : Fin 4, (idx (ix2 j a)).toInt = ((o a).val : Int) := by
  rw [resultIdx?_eq_some_iff]
  constructor
  · intro h a
    have := h a
    rw [start_four, window_four] at this
    simpa using this
  · intro h a
    rw [start_four, window_four]
    simpa using h a
end four

section bridge
variable (wf1 : ScatterDims.WF SF SI1 SU [] [0] [0] 1) (wf4 : ScatterDims.WF SO SI4 SU [] [0, 1, 2, 3] [0, 1, 2, 3] 1)

/-- The flat position of a four-axis index is its row-major position. -/
theorem flat_val (hc : SO.numel = SF.numel) (o : SO.Idx) :
    ((Shape.reshapeEquiv hc o : SF.Idx) 0).val = (((o 0).val * 256 + (o 1).val) * 256 + (o 2).val) * 64 + (o 3).val := by
  have h := Shape.rowMajor_reshapeEquiv hc o
  rw [Shape.rowMajor_val_one, Shape.rowMajor_val_four] at h
  exact h

/-- If update `j`'s flat word is the row-major position of its four (in-range) coordinate words, it lands at the flat
    position of `o` exactly when it lands at `o`: a position below 16·256·256·64 has one reading in the mixed radix
    (16, 256, 256, 64). -/
theorem lands_iff (idxK : IVec SI1 32) (idxR : IVec SI4 32) (j : Fin 16777216) (t0 t1 t2 t3 : Nat)
    (hK : (idxK (ix2 j (0 : Fin 1))).toInt = ((((t0 * 256 + t1) * 256 + t2) * 64 + t3 : Nat) : Int))
    (hR0 : (idxR (ix2 j (0 : Fin 4))).toInt = ((t0 : Nat) : Int)) (hR1 : (idxR (ix2 j (1 : Fin 4))).toInt = ((t1 : Nat) : Int))
    (hR2 : (idxR (ix2 j (2 : Fin 4))).toInt = ((t2 : Nat) : Int)) (hR3 : (idxR (ix2 j (3 : Fin 4))).toInt = ((t3 : Nat) : Int))
    (h0 : t0 < 16) (h1 : t1 < 256) (h2 : t2 < 256) (h3 : t3 < 64)
    (hc : SO.numel = SF.numel) (o : SO.Idx) :
    (dF wf1).resultIdx? (ix1 j) idxK = some (Shape.reshapeEquiv hc o) ↔ (dO wf4).resultIdx? (ix1 j) idxR = some o := by
  rw [lands_flat, lands_four, hK, flat_val]
  have b0 : (o 0).val < 16 := (o 0).isLt
  have b1 : (o 1).val < 256 := (o 1).isLt
  have b2 : (o 2).val < 256 := (o 2).isLt
  have b3 : (o 3).val < 64 := (o 3).isLt
  constructor
  · intro h a
    match a with
    | ⟨0, _⟩ => refine hR0.trans ?_; show (t0 : Int) = ((o 0).val : Int); omega
    | ⟨1, _⟩ => refine hR1.trans ?_; show (t1 : Int) = ((o 1).val : Int); omega
    | ⟨2, _⟩ => refine hR2.trans ?_; show (t2 : Int) = ((o 2).val : Int); omega
    | ⟨3, _⟩ => refine hR3.trans ?_; show (t3 : Int) = ((o 3).val : Int); omega
  · intro h
    have e0 := h 0
    have e1 := h 1
    have e2 := h 2
    have e3 := h 3
    rw [hR0] at e0; rw [hR1] at e1; rw [hR2] at e2; rw [hR3] at e3
    omega

end bridge

/-- At exact arithmetic the host's scatter-add is the operand plus the sum of the updates landing on each element. -/
theorem scatterAdd_ideal {φ : FTy} {s si u : Shape} {w : Nat} (d : ScatterDims s si u) (x : FVec Ideal s φ) (idx : IVec si w)
    (upd : FVec Ideal u φ) : Host.scatterAdd (F := Ideal) d x idx upd = Ideal.hostScatterAdd d x idx upd := rfl

/-- Two scatter-adds of the same updates, into operands that correspond along a matching `e` of their indices, agree
    along `e` when every update lands alike: the same old value plus the same updates. -/
theorem scatter_bridge {s1 si1 s4 si4 u : Shape} {w : Nat} (d1 : ScatterDims s1 si1 u) (d4 : ScatterDims s4 si4 u)
    (x1 : s1.Idx → EReal) (x4 : s4.Idx → EReal) (idx1 : IVec si1 w) (idx4 : IVec si4 w) (upd : u.Idx → EReal)
    (e : s4.Idx → s1.Idx) (hx : ∀ o, x1 (e o) = x4 o)
    (hland : ∀ (j : u.Idx) (o : s4.Idx), d1.resultIdx? j idx1 = some (e o) ↔ d4.resultIdx? j idx4 = some o)
    (o : s4.Idx) :
    Ideal.hostScatterAdd d1 x1 idx1 upd (e o) = Ideal.hostScatterAdd d4 x4 idx4 upd o := by
  unfold Ideal.hostScatterAdd
  rw [hx o]
  refine congrArg (x4 o + ·) ?_
  refine Finset.sum_congr (Finset.filter_congr ?_) (fun _ _ => rfl)
  intro j _
  exact hland j o

end Cert.Unpool
-- ==== Proof.KerIdx.lean ====
/-
  The kernel side's scatter, as functions of the two argument arrays.

  The region's output array holds, at the index (b, h, w, c) of the 16×128×128×64 index array `a`, the kernel's word of
  the entry `a (b, h, w, c)` with batch word `b` and lane word `c` (`kerT`). The host flattens that array, wraps a
  negative word once by 67108864, and hands the result as a one-column index operand (`kerIdx`) to a scatter-add of
  the flattened features into 67108864 zeros, reshaped to 16×256×256×64 (`kerOut`). `kerIdx_apply` reads the index
  operand at row `j`: the row-major position `j` of the 16×128×128×64 array has first coordinate `j / 1048576` and last
  coordinate `j mod 64`.
-/
import proofs.«103951_j91044716741200_1_alg».proof.Proof.Gen.KernelIdeal
import proofs.«103951_j91044716741200_1_alg».proof.Proof.Words
import Idealize.ShloMosaic.Lib.Pipeline.Value
import Idealize.ShloMosaic.Lib.ValueLayout

noncomputable section

namespace Cert.KernelIdeal.KerValue

open Idealize.ShloMosaic Idealize.ShloMosaic.ValueIdx
open Cert.KernelIdeal Cert.KernelIdeal.Gen

/-- The region's whole output array as a function of the index array: entry by entry the kernel's word, the batch word
    the first coordinate and the lane word the last. -/
def kerT (a : IVec S16x128x128x64 32) : IVec S16x128x128x64 32 := fun i =>
  Cert.Unpool.kerWord (BitVec.ofNat 32 (i 0).val) (BitVec.ofNat 32 (i 3).val) (a i)

/-- The scatter's index operand as the host computes it from the region's output array: flattened, a negative word
    wrapped once by 67108864, one column. -/
def kerIdx (a : IVec S16x128x128x64 32) : IVec S16777216x1 32 :=
  let t : IVec S16777216 32 := shapeCast S16777216 (kerT a) shapeCasts_S16x128x128x64_S16777216
  broadcastInDim S16777216x1 ![0] bcast_S16777216_S16777216x1_0
    (select (cmpi .slt t (broadcastInDim S16777216 ![] bcast_S_S16777216 (constantI S_ 32 0#32)))
      (addi t (broadcastInDim S16777216 ![] bcast_S_S16777216 (constantI S_ 32 67108864#32))) t)

/-- The kernel program's result: the flattened features scatter-added into 67108864 zeros along `kerIdx`, reshaped. -/
def kerOut (f : FVec Ideal S16x128x128x64 .f32) (a : IVec S16x128x128x64 32) : FVec Ideal S16x256x256x64 .f32 :=
  shapeCast S16x256x256x64
    (Host.scatterAdd (F := Ideal) scatter_S67108864_S16777216x1_S16777216_n_0_0_1
      (broadcastInDim S67108864 ![] bcast_S_S67108864 (constant (F := Ideal) S_ .f32 0x00000000#32))
      (kerIdx a)
      (shapeCast S16777216 f shapeCasts_S16x128x128x64_S16777216))
    shapeCasts_S67108864_S16x256x256x64

/-- The first and last coordinates of the 16×128×128×64 index at row-major position `j`. -/
theorem reshape_coords (j : Fin 16777216) :
    ((Shape.reshapeEquiv (s := S16x128x128x64) (s' := S16777216) shapeCasts_S16x128x128x64_S16777216 (ix1 j)) 0).val = j.val / 1048576
    ∧ ((Shape.reshapeEquiv (s := S16x128x128x64) (s' := S16777216) shapeCasts_S16x128x128x64_S16777216 (ix1 j)) 3).val = j.val % 64 := by
  have h := Shape.rowMajor_reshapeEquiv (s := S16x128x128x64) (s' := S16777216) shapeCasts_S16x128x128x64_S16777216 (ix1 j)
  rw [Shape.rowMajor_val_four, Shape.rowMajor_val_one] at h
  generalize Shape.reshapeEquiv (s := S16x128x128x64) (s' := S16777216) shapeCasts_S16x128x128x64_S16777216 (ix1 j) = k at h ⊢
  have h0 : (k 0).val < 16 := (k 0).isLt
  have h1 : (k 1).val < 128 := (k 1).isLt
  have h2 : (k 2).val < 128 := (k 2).isLt
  have h3 : (k 3).val < 64 := (k 3).isLt
  have h' : (((k 0).val * 128 + (k 1).val) * 128 + (k 2).val) * 64 + (k 3).val = j.val := h
  omega

/-- The index operand at row `j`: the kernel's word of the flattened index array's entry `j`, with batch word
    `j / 1048576` and lane word `j mod 64`, wrapped once by 67108864 when negative. -/
theorem kerIdx_apply (a : IVec S16x128x128x64 32) (j : Fin 16777216) :
    kerIdx a (ValueIdx.ix2 j (0 : Fin 1)) = Cert.Unpool.normWord 67108864#32 (Cert.Unpool.kerWord (BitVec.ofNat 32 (j.val / 1048576)) (BitVec.ofNat 32 (j.val % 64)) (shapeCast S16777216 a shapeCasts_S16x128x128x64_S16777216 (ValueIdx.ix1 j))) := by
  unfold kerIdx
  refine (broadcastInDim_apply _ _ _ (ix2 j (0 : Fin 1)) (ix1 j) (fun a => by match a with | ⟨0, _⟩ => rfl)).trans ?_
  obtain ⟨e0, e3⟩ := reshape_coords j
  have ht : shapeCast S16777216 (kerT a) shapeCasts_S16x128x128x64_S16777216 (ix1 j)
      = Cert.Unpool.kerWord (BitVec.ofNat 32 (j.val / 1048576)) (BitVec.ofNat 32 (j.val % 64)) (shapeCast S16777216 a shapeCasts_S16x128x128x64_S16777216 (ix1 j)) := by
    show Cert.Unpool.kerWord (BitVec.ofNat 32 ((Shape.reshapeEquiv (s := S16x128x128x64) (s' := S16777216) shapeCasts_S16x128x128x64_S16777216 (ix1 j)) 0).val)
        (BitVec.ofNat 32 ((Shape.reshapeEquiv (s := S16x128x128x64) (s' := S16777216) shapeCasts_S16x128x128x64_S16777216 (ix1 j)) 3).val) _ = _
    rw [e0, e3]
    rfl
  show Scalar.select (IntOp.cmpi .slt (shapeCast S16777216 (kerT a) shapeCasts_S16x128x128x64_S16777216 (ix1 j)) 0#32)
      (IntOp.addi (shapeCast S16777216 (kerT a) shapeCasts_S16x128x128x64_S16777216 (ix1 j)) 67108864#32)
      (shapeCast S16777216 (kerT a) shapeCasts_S16x128x128x64_S16777216 (ix1 j)) = _
  rw [ht]
  rfl

end Cert.KernelIdeal.KerValue

end
-- ==== Proof.KerValue.lean ====
/-
  The value of the kernel program at the ideal instance, read off its frame run.

  The region's one output window is written back at every grid point. What point t stores is, entry by entry, the
  kernel's word of the loaded block's entry, with batch word the grid's first coordinate t / 4 and lane word the last
  coordinate (`pay_apply`); the block of point t is rows [32 (t mod 4), 32 (t mod 4) + 32) of batch t / 4 of the
  16×128×128×64 array, for the input as for the output (`idx_facts`), so point t writes block t of ONE whole-array
  function, `kerT` of the index argument (`flushed_eq`); the 64 blocks cover the array (`cover`), so the region's
  output array ends at `kerT` of the index argument (`final`). The host operations after the region applied to it give
  `kerOut` (`tail_v11`), and the frame run re-posted is `run`.
-/
import proofs.«103951_j91044716741200_1_alg».proof.Proof.KernelIdealFrame
import proofs.«103951_j91044716741200_1_alg».proof.Proof.KerIdx
import Idealize.ShloMosaic.Lib.Pipeline.Value
import Idealize.ShloMosaic.Lib.ValueLayout
import Idealize.ShloMosaic.Lib.Tactic

set_option maxRecDepth 16384

noncomputable section

namespace Cert.KernelIdeal.KerValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (m : (ℓ : Loc nD τ sig) → Buf (Elt Ideal) ℓ) (ρ : Dev nD → PrngReg)

/-! ## The body's stored value at an index -/

theorem hz : (![0, 0, 0, 0] : Fin 4 → Nat) = fun _ => 0 := funext fun a => by fin_cases a <;> rfl

/-- The stored block at (u, r, p, q): the kernel's word of the loaded block's entry (0, r, p, q), with the grid's
    first coordinate as batch word and the lane number q as lane word. The leading unit axis is dropped and put back,
    the iota along the last axis reads q, and every other operation acts entry by entry. -/
theorem pay_apply (i : grid0.Coords) (v0 : Vec Ideal S1x32x128x64 .i32) (u : Fin 1) (r : Fin 32) (p : Fin 128) (q : Fin 64) :
    k0_pay1 i v0 (ix4 u r p q) = Cert.Unpool.kerWord (BitVec.ofNat 32 (i 0).val) (BitVec.ofNat 32 q.val) (v0 (ix4 (0 : Fin 1) r p q)) := by
  unfold k0_pay1
  refine (shapeCast_abc_1abc_apply _ _ u r p q).trans ?_
  have e1 : shapeCast S32x128x64 v0 shapeCasts_S1x32x128x64_S32x128x64 (ix3 r p q) = v0 (ix4 (0 : Fin 1) r p q) := shapeCast_1abc_abc_apply _ _ r p q
  have e2 : iota .tc S32x128x64 32 [2] iota_S32x128x64_d2_w32 (ix3 r p q) = BitVec.ofNat 32 q.val := iota_single_apply .tc S32x128x64 32 2 iota_S32x128x64_d2_w32 (ix3 r p q)
  rw [← e1, ← e2]
  rfl

/-- The same at any index of the block: its first coordinate is 0. -/
theorem pay_apply_idx (i : grid0.Coords) (v0 : Vec Ideal S1x32x128x64 .i32) (j : S1x32x128x64.Idx) :
    k0_pay1 i v0 j = Cert.Unpool.kerWord (BitVec.ofNat 32 (i 0).val) (BitVec.ofNat 32 (j 3).val) (v0 j) := by
  obtain ⟨u, r, p, q, rfl⟩ : ∃ (u : Fin 1) (r : Fin 32) (p : Fin 128) (q : Fin 64), j = ix4 u r p q := ⟨j 0, j 1, j 2, j 3, eq_ix4 j⟩
  obtain rfl : u = 0 := Subsingleton.elim _ _
  exact pay_apply i v0 0 r p q

/-! ## From blocks to the array -/

/-- The printed index maps, decided over the 64 grid points: the input's block moves with the output's; point t
    has block index (t / 4, t mod 4, 0, 0), and its first grid coordinate is t / 4. -/
theorem idx_facts : ∀ t : Fin cfg0.N,
    win0_0.index t (0 : Fin 4) = win0_1.index t (0 : Fin 4) ∧ win0_0.index t (1 : Fin 4) = win0_1.index t (1 : Fin 4)
    ∧ win0_0.index t (2 : Fin 4) = win0_1.index t (2 : Fin 4) ∧ win0_0.index t (3 : Fin 4) = win0_1.index t (3 : Fin 4)
    ∧ win0_1.index t (0 : Fin 4) = t.val / 4 ∧ win0_1.index t (1 : Fin 4) = t.val % 4
    ∧ win0_1.index t (2 : Fin 4) = 0 ∧ win0_1.index t (3 : Fin 4) = 0
    ∧ (grid0.coords t 0).val = t.val / 4 :=
  (by decide +kernel : ∀ t : Fin grid0.N, _)

/-- What point t writes back is block t of `kerT` of the index array as the region finds it. -/
theorem flushed_eq (c : Dev nD) (t : Fin cfg0.N) :
    (dats m 0 c).flushed 1 t = ((cfg0.win 1).blk t).view.read (Elt Ideal) (kerT (V m c main_arg1)) := by
  show (cfg0.win 1).cut (grid0.coords t) ((dats m 0 c).after 1 t) = _
  rw [after0_1]
  unfold out0_1
  rw [View.canon_unit_zero hz]
  simp only [View.ld_unit_zero (S := S1x32x128x64) hz]
  obtain ⟨e0, e1, e2, e3, f0, f1, f2, f3, g0⟩ := idx_facts t
  funext j
  show k0_pay1 (grid0.coords t) (iblk m c 0 t) j = kerT (V m c main_arg1) (((cfg0.win 1).blk t).view.emb j)
  refine (pay_apply_idx (grid0.coords t) (iblk m c 0 t) j).trans ?_
  have hj0 : (j 0).val < 1 := (j 0).isLt
  have h0 : ((cfg0.win 0).blk t).view.emb j = ((cfg0.win 1).blk t).view.emb j := by
    funext a; apply Fin.ext
    match a with
    | ⟨0, _⟩ => show win0_0.index t (0 : Fin 4) * 1 + 1 * (j 0).val = win0_1.index t (0 : Fin 4) * 1 + 1 * (j 0).val; omega
    | ⟨1, _⟩ => show win0_0.index t (1 : Fin 4) * 32 + 1 * (j 1).val = win0_1.index t (1 : Fin 4) * 32 + 1 * (j 1).val; omega
    | ⟨2, _⟩ => show win0_0.index t (2 : Fin 4) * 128 + 1 * (j 2).val = win0_1.index t (2 : Fin 4) * 128 + 1 * (j 2).val; omega
    | ⟨3, _⟩ => show win0_0.index t (3 : Fin 4) * 64 + 1 * (j 3).val = win0_1.index t (3 : Fin 4) * 64 + 1 * (j 3).val; omega
  have hb : ((((cfg0.win 1).blk t).view.emb j) 0).val = (grid0.coords t 0).val := by
    show win0_1.index t (0 : Fin 4) * 1 + 1 * (j 0).val = _; omega
  have hq : ((((cfg0.win 1).blk t).view.emb j) 3).val = (j 3).val := by
    show win0_1.index t (3 : Fin 4) * 64 + 1 * (j 3).val = _; omega
  show Cert.Unpool.kerWord (BitVec.ofNat 32 (grid0.coords t 0).val) (BitVec.ofNat 32 (j 3).val) (V m c main_arg1 (((cfg0.win 0).blk t).view.emb j))
    = Cert.Unpool.kerWord (BitVec.ofNat 32 ((((cfg0.win 1).blk t).view.emb j) 0).val) (BitVec.ofNat 32 ((((cfg0.win 1).blk t).view.emb j) 3).val) (V m c main_arg1 (((cfg0.win 1).blk t).view.emb j))
  rw [h0, hb, hq]

/-- An index of the array is in point t's block iff each coordinate is in the block's range on its axis. -/
theorem mem_blk (t : Fin cfg0.N) (i : S16x128x128x64.Idx) :
    i ∈ ((cfg0.win 1).blk t).view.set ↔ ∀ a : Fin 4, win0_1.index t a * S1x32x128x64.size a ≤ (i a).val ∧ (i a).val < win0_1.index t a * S1x32x128x64.size a + S1x32x128x64.size a := by
  show i ∈ ((View.whole main_v0).slice (win0_1.rect t)).set ↔ _
  rw [View.set_slice_whole, Rect.mem_set_unit]
  exact Iff.rfl

/-- Every index (b, h, w, c) of the array lies in the block of the point 4 b + h / 32. -/
theorem cover (i : S16x128x128x64.Idx) :
    ∃ t : Fin cfg0.N, (cfg0.win 1).flush t = true ∧ i ∈ ((cfg0.win 1).blk t).view.set := by
  have hi0 : (i 0).val < 16 := (i 0).isLt
  have hi1 : (i 1).val < 128 := (i 1).isLt
  have hi2 : (i 2).val < 128 := (i 2).isLt
  have hi3 : (i 3).val < 64 := (i 3).isLt
  obtain ⟨t, tv⟩ : ∃ t : Fin cfg0.N, t.val = 4 * (i 0).val + (i 1).val / 32 :=
    ⟨⟨4 * (i 0).val + (i 1).val / 32, lt_of_lt_of_eq (by omega : 4 * (i 0).val + (i 1).val / 32 < 64) N_0.symm⟩, rfl⟩
  obtain ⟨e0, e1, e2, e3, f0, f1, f2, f3, g0⟩ := idx_facts t
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 32 ≤ (i 1).val ∧ (i 1).val < win0_1.index t (1 : Fin 4) * 32 + 32; omega
  | ⟨2, _⟩ => show win0_1.index t (2 : Fin 4) * 128 ≤ (i 2).val ∧ (i 2).val < win0_1.index t (2 : Fin 4) * 128 + 128; omega
  | ⟨3, _⟩ => show win0_1.index t (3 : Fin 4) * 64 ≤ (i 3).val ∧ (i 3).val < win0_1.index t (3 : Fin 4) * 64 + 64; omega

/-- The region's output array after the run is `kerT` of the index argument. -/
theorem final (c : Dev nD) : (dats m 0 c).arrAt 1 cfg0.N = kerT (m ((c : Thread nD τ).loc main_arg1)) :=
  (dats m 0 c).arrAt_eq_of_cover 1 (kerT (V m c main_arg1)) (fun t _ => flushed_eq m c t) cover

/-! ## The host operations after the region, and the run -/

/-- The program's result buffer after the host operations that follow the region: the region's output array (`kerT` of
    the index argument, `final`) flattened, wrapped and made the index operand of the scatter-add of the flattened
    features into zeros, reshaped: `kerOut` of the two arguments. -/
theorem tail_v11 (c : Dev nD) :
    Pipeline.afterTail₀ cfgs (dats m) 0 (V0 m) [hostOps1] c main_v11
      = kerOut (m ((c : Thread nD τ).loc main_arg0)) (m ((c : Thread nD τ).loc main_arg1)) := by
  have hv0 : Pipeline.withArrays (cfgs 0).spec c (V0 m c) (fun w => (dats m 0 c).arrAt w (cfgs 0).N) (Proc.devRef .tc main_v0)
      = kerT (m ((c : Thread nD τ).loc main_arg1)) :=
    (Pipeline.withArrays_arr spec0 launch0.win.arr_inj c _ _ 1).trans (final m c)
  have ha0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans (V_main_arg0 m c)
  unfold Pipeline.afterTail₀
  show StableHlo.after hostOps1 _ (Proc.devRef .tc main_v11) = _
  after_results
  rw [hv0, ha0]
  rfl

/-- At the compiled mesh, from any memory with zero counters: every weakly fair execution of the kernel program
    terminates, the result buffer holds `kerOut` of the two arguments, and the arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = kerOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v11 (Pipeline.mem_restRefs_of main_v11 (by decide) (by decide))).trans (tail_v11 m c),
       ((h c).2 main_arg0 (Pipeline.mem_restRefs_of main_arg0 (by decide) (by decide))).trans (W_main_arg0 m (dats m) c),
       ((h c).1 0).trans (((dats m 0 c).arrAt_in 0 rfl _).trans ((A_eq m c 0).trans (V_main_arg1 m c)))⟩)
    (run_main m ρ)

end Cert.KernelIdeal.KerValue

end
-- ==== Proof.RefTerm.lean ====
/-
  The reference program's result as a pure term of its two arguments: the scatter's index table, built as the
  program builds it (the flattened index words; the batch and lane numbers of each flattened position; the floor
  division and floor remainder by constants; each coordinate wrapped once if negative; the four lists side by side),
  and the scatter-add of the flattened features into zeros at those coordinates.
-/
import proofs.«103951_j91044716741200_1_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.SL.Sem

/-- A rank-zero value at every position of the flattened input. -/
def splat {α : Type} (x : S_.Idx → α) : S16777216.Idx → α := broadcastInDim S16777216 ![] bcast_S_S16777216 x

/-- The index words in row-major order. -/
def flatIdx (a : IVec S16x128x128x64 32) : IVec S16777216 32 := shapeCast S16777216 a shapeCasts_S16x128x128x64_S16777216

/-- The batch number of each flattened position: the numbers 0‥15, each repeated 1048576 times. -/
def batchCol : IVec S16777216 32 :=
  shapeCast S16777216 (broadcastInDim S16x1048576 ![0] bcast_S16_S16x1048576_0 (iotaInDim S16 32 0)) shapeCasts_S16x1048576_S16777216

/-- The lane number of each flattened position: the numbers 0‥63, the whole run repeated 262144 times. -/
def laneCol : IVec S16777216 32 :=
  shapeCast S16777216
    (broadcastInDim S262144x64 ![0, 1] bcast_S1x64_S262144x64_0_1 (shapeCast S1x64 (iotaInDim S64 32 0) shapeCasts_S64_S1x64))
    shapeCasts_S262144x64_S16777216

/-- The floor division by a rank-zero divisor, as the program spells it: the truncating quotient, less one where the
    signs differ and the remainder is not zero. -/
def floorDiv (x : IVec S16777216 32) (d : IVec S_ 32) : IVec S16777216 32 :=
  select
    (andi (cmpi .ne (signi x) (splat (signi d))) (cmpi .ne (Host.remsi x (splat d)) (splat (constantI S_ 32 0#32))))
    (subi (Host.divsi x (splat d)) (splat (constantI S_ 32 1#32)))
    (Host.divsi x (splat d))

/-- The divisor of the floor remainder: one in place of zero. -/
def remDiv (d : IVec S_ 32) : IVec S_ 32 := select (cmpi .eq d (constantI S_ 32 0#32)) (constantI S_ 32 1#32) d

/-- The floor remainder by a rank-zero divisor, as the program spells it: the truncating remainder, plus the divisor
    where its sign differs from the divisor's and it is not zero. -/
def floorRem (x : IVec S16777216 32) (d : IVec S_ 32) : IVec S16777216 32 :=
  select
    (andi
      (cmpi .ne (cmpi .slt (Host.remsi x (splat (remDiv d))) (splat (constantI S_ 32 0#32)))
        (splat (cmpi .slt (remDiv d) (constantI S_ 32 0#32))))
      (cmpi .ne (Host.remsi x (splat (remDiv d))) (splat (constantI S_ 32 0#32))))
    (addi (Host.remsi x (splat (remDiv d))) (splat (remDiv d)))
    (Host.remsi x (splat (remDiv d)))

/-- A negative coordinate wrapped once by the extent `n`. -/
def wrap (n : BitVec 32) (x : IVec S16777216 32) : IVec S16777216 32 :=
  select (cmpi .slt x (splat (constantI S_ 32 0#32))) (addi x (splat (constantI S_ 32 n))) x

/-- A list of coordinates as a one-column table. -/
def col (x : IVec S16777216 32) : IVec S16777216x1 32 := broadcastInDim S16777216x1 ![0] bcast_S16777216_S16777216x1_0 x

/-- The scatter's index table: per flattened position its four coordinates (batch, row, column, lane), each wrapped
    once if negative, side by side. -/
def refIdx (a : IVec S16x128x128x64 32) : IVec S16777216x4 32 :=
  concatenate S16777216x4 1
    [⟨S16777216x1, col (wrap 16#32 batchCol)⟩,
     ⟨S16777216x1, col (wrap 256#32 (floorDiv (flatIdx a) (constantI S_ 32 16384#32)))⟩,
     ⟨S16777216x1, col (wrap 256#32 (floorRem (floorDiv (flatIdx a) (constantI S_ 32 64#32)) (constantI S_ 32 256#32)))⟩,
     ⟨S16777216x1, col (wrap 64#32 laneCol)⟩]
    concatenates_S16777216x1_S16777216x1_S16777216x1_S16777216x1_S16777216x4_d1

/-- The program's result: the flattened features scatter-added into zeros at the index table's coordinates. -/
def refOut (f : FVec Ideal S16x128x128x64 .f32) (a : IVec S16x128x128x64 32) : FVec Ideal S16x256x256x64 .f32 :=
  Host.scatterAdd (F := Ideal) scatter_S16x256x256x64_S16777216x4_S16777216_n_0123_0123_1
    (broadcastInDim S16x256x256x64 ![] bcast_S_S16x256x256x64 (constant (F := Ideal) S_ .f32 0x00000000#32))
    (refIdx a) (shapeCast S16777216 f shapeCasts_S16x128x128x64_S16777216)

end Cert.ReferenceIdeal.RefValue

end
-- ==== Proof.RefRead.lean ====
/-
  The scatter's index table read at an index. Row `j` of the table holds the four coordinates the reference sends
  update `j` to; each is read here as a scalar 32-bit word: the batch number `j / 1048576` and the lane number
  `j % 64` (the two iotas, broadcast and flattened row-major), and the floor quotient by 16384 and the floor
  remainder by 256 of the floor quotient by 64 of the index word at `j`, each wrapped once if negative.
-/
import proofs.«103951_j91044716741200_1_alg».proof.Proof.RefTerm
import proofs.«103951_j91044716741200_1_alg».proof.Proof.Words
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.SL.Sem Idealize.ShloMosaic.ValueIdx

/-- A one-column table read at row `j` is the list at `j`. -/
theorem col_apply (x : IVec S16777216 32) (j : Fin 16777216) : col x (ix2 j (0 : Fin 1)) = x (ix1 j) := by
  unfold col
  exact broadcastInDim_apply _ _ _ _ (ix1 j) (fun a => match a with | ⟨0, _⟩ => rfl)

/-- The wrap of a negative coordinate, at one position, is the scalar word. -/
theorem wrap_apply (n : BitVec 32) (x : IVec S16777216 32) (i : S16777216.Idx) :
    wrap n x i = Cert.Unpool.normWord n (x i) := rfl

/-- The floor division by a constant, at one position, is the scalar word: every operation of it is pointwise, and
    a rank-zero constant broadcast reads the constant. -/
theorem floorDiv_apply (x : IVec S16777216 32) (c : BitVec 32) (i : S16777216.Idx) :
    floorDiv x (constantI S_ 32 c) i = Cert.Unpool.fdWord (x i) c := rfl

/-- The floor remainder by a constant, at one position, is the scalar word. -/
theorem floorRem_apply (x : IVec S16777216 32) (c : BitVec 32) (i : S16777216.Idx) :
    floorRem x (constantI S_ 32 c) i = Cert.Unpool.remWord (x i) c := rfl

/-- Position `j` of the flattened input lies in batch `j / 1048576`: row-major, `j` is row `j / 1048576`, column
    `j % 1048576` of the 16 × 1048576 table whose rows are constant. -/
theorem batchCol_apply (j : Fin 16777216) : batchCol (ix1 j) = BitVec.ofNat 32 (j.val / 1048576) := by
  unfold batchCol
  refine (shapeCast_apply _ _ (ix1 j) (ix2 (⟨j.val / 1048576, by omega⟩ : Fin 16) (⟨j.val % 1048576, by omega⟩ : Fin 1048576)) ?_).trans ?_
  · rw [Shape.rowMajor_val_two, Shape.rowMajor_val_one]
    show j.val / 1048576 * 1048576 + j.val % 1048576 = j.val
    omega
  · rfl

/-- Position `j` of the flattened input is lane `j % 64`: row-major, `j` is row `j / 64`, column `j % 64` of the
    262144 × 64 table whose every row is 0‥63. -/
theorem laneCol_apply (j : Fin 16777216) : laneCol (ix1 j) = BitVec.ofNat 32 (j.val % 64) := by
  unfold laneCol
  refine (shapeCast_apply _ _ (ix1 j) (ix2 (⟨j.val / 64, by omega⟩ : Fin 262144) (⟨j.val % 64, by omega⟩ : Fin 64)) ?_).trans ?_
  · rw [Shape.rowMajor_val_two, Shape.rowMajor_val_one]
    show j.val / 64 * 64 + j.val % 64 = j.val
    omega
  · refine (broadcastInDim_apply _ _ _ _ (ix2 (0 : Fin 1) (⟨j.val % 64, by omega⟩ : Fin 64)) (fun a => match a with | ⟨0, _⟩ => rfl | ⟨1, _⟩ => rfl)).trans ?_
    refine (shapeCast_apply _ _ _ (ix1 (⟨j.val % 64, by omega⟩ : Fin 64)) ?_).trans ?_
    · rw [Shape.rowMajor_val_two, Shape.rowMajor_val_one]
      show j.val % 64 = 0 * 64 + j.val % 64
      omega
    · rfl

/-- Four one-column tables side by side, read at column 0: the first table's entry in that row. -/
private theorem pieces_apply0 (x0 x1 x2 x3 : IVec S16777216x1 32) (j : Fin 16777216) :
    concatenate S16777216x4 1 [⟨S16777216x1, x0⟩, ⟨S16777216x1, x1⟩, ⟨S16777216x1, x2⟩, ⟨S16777216x1, x3⟩] concatenates_S16777216x1_S16777216x1_S16777216x1_S16777216x1_S16777216x4_d1 (ix2 j (0 : Fin 4)) = x0 (ix2 j (0 : Fin 1)) :=
  concatenate_apply_piece (t := S16777216x4) (1 : Fin 2) [⟨S16777216x1, x0⟩, ⟨S16777216x1, x1⟩, ⟨S16777216x1, x2⟩, ⟨S16777216x1, x3⟩] concatenates_S16777216x1_S16777216x1_S16777216x1_S16777216x1_S16777216x4_d1 (ix2 j (0 : Fin 4)) 0 (by show 0 < 4; omega) S16777216x1 x0 rfl rfl 0 rfl
    (ix2 j (0 : Fin 1)) (fun b hb => match b, hb with | ⟨0, _⟩, _ => rfl | ⟨1, _⟩, hb => absurd rfl hb) rfl

/-- Four one-column tables side by side, read at column 1: the second table's entry in that row. -/
private theorem pieces_apply1 (x0 x1 x2 x3 : IVec S16777216x1 32) (j : Fin 16777216) :
    concatenate S16777216x4 1 [⟨S16777216x1, x0⟩, ⟨S16777216x1, x1⟩, ⟨S16777216x1, x2⟩, ⟨S16777216x1, x3⟩] concatenates_S16777216x1_S16777216x1_S16777216x1_S16777216x1_S16777216x4_d1 (ix2 j (1 : Fin 4)) = x1 (ix2 j (0 : Fin 1)) :=
  concatenate_apply_piece (t := S16777216x4) (1 : Fin 2) [⟨S16777216x1, x0⟩, ⟨S16777216x1, x1⟩, ⟨S16777216x1, x2⟩, ⟨S16777216x1, x3⟩] concatenates_S16777216x1_S16777216x1_S16777216x1_S16777216x1_S16777216x4_d1 (ix2 j (1 : Fin 4)) 1 (by show 1 < 4; omega) S16777216x1 x1 rfl rfl 1 rfl
    (ix2 j (0 : Fin 1)) (fun b hb => match b, hb with | ⟨0, _⟩, _ => rfl | ⟨1, _⟩, hb => absurd rfl hb) rfl

/-- Four one-column tables side by side, read at column 2: the third table's entry in that row. -/
private theorem pieces_apply2 (x0 x1 x2 x3 : IVec S16777216x1 32) (j : Fin 16777216) :
    concatenate S16777216x4 1 [⟨S16777216x1, x0⟩, ⟨S16777216x1, x1⟩, ⟨S16777216x1, x2⟩, ⟨S16777216x1, x3⟩] concatenates_S16777216x1_S16777216x1_S16777216x1_S16777216x1_S16777216x4_d1 (ix2 j (2 : Fin 4)) = x2 (ix2 j (0 : Fin 1)) :=
  concatenate_apply_piece (t := S16777216x4) (1 : Fin 2) [⟨S16777216x1, x0⟩, ⟨S16777216x1, x1⟩, ⟨S16777216x1, x2⟩, ⟨S16777216x1, x3⟩] concatenates_S16777216x1_S16777216x1_S16777216x1_S16777216x1_S16777216x4_d1 (ix2 j (2 : Fin 4)) 2 (by show 2 < 4; omega) S16777216x1 x2 rfl rfl 2 rfl
    (ix2 j (0 : Fin 1)) (fun b hb => match b, hb with | ⟨0, _⟩, _ => rfl | ⟨1, _⟩, hb => absurd rfl hb) rfl

/-- Four one-column tables side by side, read at column 3: the fourth table's entry in that row. -/
private theorem pieces_apply3 (x0 x1 x2 x3 : IVec S16777216x1 32) (j : Fin 16777216) :
    concatenate S16777216x4 1 [⟨S16777216x1, x0⟩, ⟨S16777216x1, x1⟩, ⟨S16777216x1, x2⟩, ⟨S16777216x1, x3⟩] concatenates_S16777216x1_S16777216x1_S16777216x1_S16777216x1_S16777216x4_d1 (ix2 j (3 : Fin 4)) = x3 (ix2 j (0 : Fin 1)) :=
  concatenate_apply_piece (t := S16777216x4) (1 : Fin 2) [⟨S16777216x1, x0⟩, ⟨S16777216x1, x1⟩, ⟨S16777216x1, x2⟩, ⟨S16777216x1, x3⟩] concatenates_S16777216x1_S16777216x1_S16777216x1_S16777216x1_S16777216x4_d1 (ix2 j (3 : Fin 4)) 3 (by show 3 < 4; omega) S16777216x1 x3 rfl rfl 3 rfl
    (ix2 j (0 : Fin 1)) (fun b hb => match b, hb with | ⟨0, _⟩, _ => rfl | ⟨1, _⟩, hb => absurd rfl hb) rfl

/-- Column 0 of the index table at row `j`: the batch number, wrapped by 16. -/
theorem refIdx_apply0 (a : IVec S16x128x128x64 32) (j : Fin 16777216) :
    refIdx a (ix2 j (0 : Fin 4)) = Cert.Unpool.normWord 16#32 (BitVec.ofNat 32 (j.val / 1048576)) := by
  unfold refIdx
  rw [pieces_apply0, col_apply, wrap_apply, batchCol_apply]

/-- Column 1 of the index table at row `j`: the index word's floor quotient by 16384, wrapped by 256. -/
theorem refIdx_apply1 (a : IVec S16x128x128x64 32) (j : Fin 16777216) :
    refIdx a (ix2 j (1 : Fin 4)) = Cert.Unpool.normWord 256#32
      (Cert.Unpool.fdWord (shapeCast S16777216 a shapeCasts_S16x128x128x64_S16777216 (ix1 j)) 16384#32) := by
  unfold refIdx
  rw [pieces_apply1, col_apply, wrap_apply, floorDiv_apply]; rfl

/-- Column 2 of the index table at row `j`: the floor quotient by 64, its floor remainder by 256, wrapped by 256. -/
theorem refIdx_apply2 (a : IVec S16x128x128x64 32) (j : Fin 16777216) :
    refIdx a (ix2 j (2 : Fin 4)) = Cert.Unpool.normWord 256#32
      (Cert.Unpool.remWord (Cert.Unpool.fdWord (shapeCast S16777216 a shapeCasts_S16x128x128x64_S16777216 (ix1 j)) 64#32) 256#32) := by
  unfold refIdx
  rw [pieces_apply2, col_apply, wrap_apply, floorRem_apply, floorDiv_apply]; rfl

/-- Column 3 of the index table at row `j`: the lane number, wrapped by 64. -/
theorem refIdx_apply3 (a : IVec S16x128x128x64 32) (j : Fin 16777216) :
    refIdx a (ix2 j (3 : Fin 4)) = Cert.Unpool.normWord 64#32 (BitVec.ofNat 32 (j.val % 64)) := by
  unfold refIdx
  rw [pieces_apply3, col_apply, wrap_apply, laneCol_apply]

end Cert.ReferenceIdeal.RefValue

end
-- ==== Proof.RefRun.lean ====
/-
  The reference program's run, written out. Its @main is a straight line of 103 host operations once the three
  module-local functions (the floor division, called twice, and the floor remainder, each calling an auxiliary select function)
  are unfolded at their calls: every buffer ends at the fold of the operations' results over the launch contents.
-/
import proofs.«103951_j91044716741200_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The floor division's seventeen operations over its two arguments and one call's buffers (its own sixteen and the
    auxiliary select function's one). -/
abbrev fdOps (a : StableHlo.TRef sig ⟨S16777216, .i32⟩) (b : StableHlo.TRef sig ⟨S_, .i32⟩) (φ : fn_floor_divide.Bufs) :
    List (HloOp τ sig (Elt F)) :=
  [ StableHlo.TRef.unary b φ.v0 id,
    StableHlo.TRef.unary φ.v0 φ.v1 (broadcastInDim S16777216 ![] bcast_S_S16777216),
    StableHlo.TRef.binary a φ.v1 φ.v2 Host.divsi,
    StableHlo.TRef.unary a φ.v3 signi,
    StableHlo.TRef.unary φ.v0 φ.v4 signi,
    StableHlo.TRef.unary φ.v4 φ.v5 (broadcastInDim S16777216 ![] bcast_S_S16777216),
    StableHlo.TRef.binary φ.v3 φ.v5 φ.v6 (cmpi .ne),
    StableHlo.TRef.unary φ.v0 φ.v7 (broadcastInDim S16777216 ![] bcast_S_S16777216),
    StableHlo.TRef.binary a φ.v7 φ.v8 Host.remsi,
    StableHlo.TRef.nullary φ.c (constantI S_ 32 0#32),
    StableHlo.TRef.unary φ.c φ.v9 (broadcastInDim S16777216 ![] bcast_S_S16777216),
    StableHlo.TRef.binary φ.v8 φ.v9 φ.v10 (cmpi .ne),
    StableHlo.TRef.binary φ.v6 φ.v10 φ.v11 andi,
    StableHlo.TRef.nullary φ.c_0 (constantI S_ 32 1#32),
    StableHlo.TRef.unary φ.c_0 φ.v12 (broadcastInDim S16777216 ![] bcast_S_S16777216),
    StableHlo.TRef.binary φ.v2 φ.v12 φ.v13 subi,
    StableHlo.TRef.ternary φ.v11 φ.v13 φ.v2 φ.call0.v0 select ]

/-- The floor remainder's twenty-one operations over its two arguments and one call's buffers (the scalar auxiliary
    select function's one among them). -/
abbrev remOps (a : StableHlo.TRef sig ⟨S16777216, .i32⟩) (b : StableHlo.TRef sig ⟨S_, .i32⟩) (φ : fn_remainder.Bufs) :
    List (HloOp τ sig (Elt F)) :=
  [ StableHlo.TRef.unary b φ.v0 id,
    StableHlo.TRef.nullary φ.c (constantI S_ 32 0#32),
    StableHlo.TRef.binary φ.v0 φ.c φ.v1 (cmpi .eq),
    StableHlo.TRef.nullary φ.c_0 (constantI S_ 32 1#32),
    StableHlo.TRef.ternary φ.v1 φ.c_0 φ.v0 φ.call0.v0 select,
    StableHlo.TRef.unary φ.call0.v0 φ.v3 (broadcastInDim S16777216 ![] bcast_S_S16777216),
    StableHlo.TRef.binary a φ.v3 φ.v4 Host.remsi,
    StableHlo.TRef.nullary φ.c_1 (constantI S_ 32 0#32),
    StableHlo.TRef.unary φ.c_1 φ.v5 (broadcastInDim S16777216 ![] bcast_S_S16777216),
    StableHlo.TRef.binary φ.v4 φ.v5 φ.v6 (cmpi .ne),
    StableHlo.TRef.nullary φ.c_2 (constantI S_ 32 0#32),
    StableHlo.TRef.unary φ.c_2 φ.v7 (broadcastInDim S16777216 ![] bcast_S_S16777216),
    StableHlo.TRef.binary φ.v4 φ.v7 φ.v8 (cmpi .slt),
    StableHlo.TRef.nullary φ.c_3 (constantI S_ 32 0#32),
    StableHlo.TRef.binary φ.call0.v0 φ.c_3 φ.v9 (cmpi .slt),
    StableHlo.TRef.unary φ.v9 φ.v10 (broadcastInDim S16777216 ![] bcast_S_S16777216),
    StableHlo.TRef.binary φ.v8 φ.v10 φ.v11 (cmpi .ne),
    StableHlo.TRef.binary φ.v11 φ.v6 φ.v12 andi,
    StableHlo.TRef.unary φ.call0.v0 φ.v13 (broadcastInDim S16777216 ![] bcast_S_S16777216),
    StableHlo.TRef.binary φ.v4 φ.v13 φ.v14 addi,
    StableHlo.TRef.ternary φ.v12 φ.v14 φ.v4 φ.v15 select ]

/-- The floor division's body is the straight line of its operations. -/
theorem fd_eq (a : StableHlo.TRef sig ⟨S16777216, .i32⟩) (b : StableHlo.TRef sig ⟨S_, .i32⟩) (φ : fn_floor_divide.Bufs) :
    fn_floor_divide.body (F := F) a b φ = seq (fdOps a b φ) := by
  simp only [fn_floor_divide.body, fn_where.body, seq, bind_assoc, pure_bind]

/-- The floor remainder's body is the straight line of its operations. -/
theorem rem_eq (a : StableHlo.TRef sig ⟨S16777216, .i32⟩) (b : StableHlo.TRef sig ⟨S_, .i32⟩) (φ : fn_remainder.Bufs) :
    fn_remainder.body (F := F) a b φ = seq (remOps a b φ) := by
  simp only [fn_remainder.body, fn_where_0.body, seq, bind_assoc, pure_bind]

/-- @main's 103 operations, in order: its own, and at each call the callee's operations over that call's buffers
    (the floor division's seventeen, twice; the floor remainder's twenty-one). -/
abbrev ops : List (HloOp τ sig (Elt F)) :=
  [ StableHlo.reshape main_arg1 main_v0 rfl shapeCasts_S16x128x128x64_S16777216,
    StableHlo.nullary main_v1 (iotaInDim S16 32 0),
    StableHlo.unary main_v1 main_v2 (broadcastInDim S16x1048576 ![0] bcast_S16_S16x1048576_0 : (⟨S16, .i32⟩ : BufTy).Contents (Elt F) → (⟨S16x1048576, .i32⟩ : BufTy).Contents (Elt F)),
    StableHlo.reshape main_v2 main_v3 rfl shapeCasts_S16x1048576_S16777216,
    StableHlo.nullary main_c (constantI S_ 32 16384#32),
    StableHlo.TRef.unary (.of main_c : StableHlo.TRef sig ⟨S_, .i32⟩) main_call0.v0 id,
    StableHlo.TRef.unary main_call0.v0 main_call0.v1 (broadcastInDim S16777216 ![] bcast_S_S16777216),
    StableHlo.TRef.binary (.of main_v0 : StableHlo.TRef sig ⟨S16777216, .i32⟩) main_call0.v1 main_call0.v2 Host.divsi,
    StableHlo.TRef.unary (.of main_v0 : StableHlo.TRef sig ⟨S16777216, .i32⟩) main_call0.v3 signi,
    StableHlo.TRef.unary main_call0.v0 main_call0.v4 signi,
    StableHlo.TRef.unary main_call0.v4 main_call0.v5 (broadcastInDim S16777216 ![] bcast_S_S16777216),
    StableHlo.TRef.binary main_call0.v3 main_call0.v5 main_call0.v6 (cmpi .ne),
    StableHlo.TRef.unary main_call0.v0 main_call0.v7 (broadcastInDim S16777216 ![] bcast_S_S16777216),
    StableHlo.TRef.binary (.of main_v0 : StableHlo.TRef sig ⟨S16777216, .i32⟩) main_call0.v7 main_call0.v8 Host.remsi,
    StableHlo.TRef.nullary main_call0.c (constantI S_ 32 0#32),
    StableHlo.TRef.unary main_call0.c main_call0.v9 (broadcastInDim S16777216 ![] bcast_S_S16777216),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S16777216 ![] bcast_S_S16777216),
    StableHlo.TRef.binary main_call0.v2 main_call0.v12 main_call0.v13 subi,
    StableHlo.TRef.ternary main_call0.v11 main_call0.v13 main_call0.v2 main_call0.call0.v0 select,
    StableHlo.nullary main_c_0 (constantI S_ 32 64#32),
    StableHlo.TRef.unary (.of main_c_0 : StableHlo.TRef sig ⟨S_, .i32⟩) main_call1.v0 id,
    StableHlo.TRef.unary main_call1.v0 main_call1.v1 (broadcastInDim S16777216 ![] bcast_S_S16777216),
    StableHlo.TRef.binary (.of main_v0 : StableHlo.TRef sig ⟨S16777216, .i32⟩) main_call1.v1 main_call1.v2 Host.divsi,
    StableHlo.TRef.unary (.of main_v0 : StableHlo.TRef sig ⟨S16777216, .i32⟩) main_call1.v3 signi,
    StableHlo.TRef.unary main_call1.v0 main_call1.v4 signi,
    StableHlo.TRef.unary main_call1.v4 main_call1.v5 (broadcastInDim S16777216 ![] bcast_S_S16777216),
    StableHlo.TRef.binary main_call1.v3 main_call1.v5 main_call1.v6 (cmpi .ne),
    StableHlo.TRef.unary main_call1.v0 main_call1.v7 (broadcastInDim S16777216 ![] bcast_S_S16777216),
    StableHlo.TRef.binary (.of main_v0 : StableHlo.TRef sig ⟨S16777216, .i32⟩) main_call1.v7 main_call1.v8 Host.remsi,
    StableHlo.TRef.nullary main_call1.c (constantI S_ 32 0#32),
    StableHlo.TRef.unary main_call1.c main_call1.v9 (broadcastInDim S16777216 ![] bcast_S_S16777216),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S16777216 ![] bcast_S_S16777216),
    StableHlo.TRef.binary main_call1.v2 main_call1.v12 main_call1.v13 subi,
    StableHlo.TRef.ternary main_call1.v11 main_call1.v13 main_call1.v2 main_call1.call0.v0 select,
    StableHlo.nullary main_c_1 (constantI S_ 32 256#32),
    StableHlo.TRef.unary (.of main_c_1 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S16777216 ![] bcast_S_S16777216),
    StableHlo.TRef.binary (.of main_v5 : StableHlo.TRef sig ⟨S16777216, .i32⟩) main_call2.v3 main_call2.v4 Host.remsi,
    StableHlo.TRef.nullary main_call2.c_1 (constantI S_ 32 0#32),
    StableHlo.TRef.unary main_call2.c_1 main_call2.v5 (broadcastInDim S16777216 ![] bcast_S_S16777216),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S16777216 ![] bcast_S_S16777216),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S16777216 ![] bcast_S_S16777216),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S16777216 ![] bcast_S_S16777216),
    StableHlo.TRef.binary main_call2.v4 main_call2.v13 main_call2.v14 addi,
    StableHlo.TRef.ternary main_call2.v12 main_call2.v14 main_call2.v4 main_call2.v15 select,
    StableHlo.nullary main_v7 (iotaInDim S64 32 0),
    StableHlo.reshape main_v7 main_v8 rfl shapeCasts_S64_S1x64,
    StableHlo.unary main_v8 main_v9 (broadcastInDim S262144x64 ![0, 1] bcast_S1x64_S262144x64_0_1 : (⟨S1x64, .i32⟩ : BufTy).Contents (Elt F) → (⟨S262144x64, .i32⟩ : BufTy).Contents (Elt F)),
    StableHlo.reshape main_v9 main_v10 rfl shapeCasts_S262144x64_S16777216,
    StableHlo.reshape main_arg0 main_v11 rfl shapeCasts_S16x128x128x64_S16777216,
    StableHlo.nullary main_cst (constant S_ .f32 0x00000000#32),
    StableHlo.unary main_cst main_v12 (broadcastInDim S16x256x256x64 ![] bcast_S_S16x256x256x64 : (⟨S_, .f32⟩ : BufTy).Contents (Elt F) → (⟨S16x256x256x64, .f32⟩ : BufTy).Contents (Elt F)),
    StableHlo.nullary main_c_2 (constantI S_ 32 0#32),
    StableHlo.unary main_c_2 main_v13 (broadcastInDim S16777216 ![] bcast_S_S16777216 : (⟨S_, .i32⟩ : BufTy).Contents (Elt F) → (⟨S16777216, .i32⟩ : BufTy).Contents (Elt F)),
    StableHlo.binary main_v3 main_v13 main_v14 (cmpi .slt : (⟨S16777216, .i32⟩ : BufTy).Contents (Elt F) → (⟨S16777216, .i32⟩ : BufTy).Contents (Elt F) → (⟨S16777216, .i1⟩ : BufTy).Contents (Elt F)),
    StableHlo.nullary main_c_3 (constantI S_ 32 16#32),
    StableHlo.unary main_c_3 main_v15 (broadcastInDim S16777216 ![] bcast_S_S16777216 : (⟨S_, .i32⟩ : BufTy).Contents (Elt F) → (⟨S16777216, .i32⟩ : BufTy).Contents (Elt F)),
    StableHlo.binary main_v3 main_v15 main_v16 (addi : (⟨S16777216, .i32⟩ : BufTy).Contents (Elt F) → (⟨S16777216, .i32⟩ : BufTy).Contents (Elt F) → (⟨S16777216, .i32⟩ : BufTy).Contents (Elt F)),
    StableHlo.ternary main_v14 main_v16 main_v3 main_v17 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.nullary main_c_4 (constantI S_ 32 0#32),
    StableHlo.unary main_c_4 main_v18 (broadcastInDim S16777216 ![] bcast_S_S16777216 : (⟨S_, .i32⟩ : BufTy).Contents (Elt F) → (⟨S16777216, .i32⟩ : BufTy).Contents (Elt F)),
    StableHlo.binary main_v4 main_v18 main_v19 (cmpi .slt : (⟨S16777216, .i32⟩ : BufTy).Contents (Elt F) → (⟨S16777216, .i32⟩ : BufTy).Contents (Elt F) → (⟨S16777216, .i1⟩ : BufTy).Contents (Elt F)),
    StableHlo.nullary main_c_5 (constantI S_ 32 256#32),
    StableHlo.unary main_c_5 main_v20 (broadcastInDim S16777216 ![] bcast_S_S16777216 : (⟨S_, .i32⟩ : BufTy).Contents (Elt F) → (⟨S16777216, .i32⟩ : BufTy).Contents (Elt F)),
    StableHlo.binary main_v4 main_v20 main_v21 (addi : (⟨S16777216, .i32⟩ : BufTy).Contents (Elt F) → (⟨S16777216, .i32⟩ : BufTy).Contents (Elt F) → (⟨S16777216, .i32⟩ : BufTy).Contents (Elt F)),
    StableHlo.ternary main_v19 main_v21 main_v4 main_v22 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.nullary main_c_6 (constantI S_ 32 0#32),
    StableHlo.unary main_c_6 main_v23 (broadcastInDim S16777216 ![] bcast_S_S16777216 : (⟨S_, .i32⟩ : BufTy).Contents (Elt F) → (⟨S16777216, .i32⟩ : BufTy).Contents (Elt F)),
    StableHlo.binary main_v6 main_v23 main_v24 (cmpi .slt : (⟨S16777216, .i32⟩ : BufTy).Contents (Elt F) → (⟨S16777216, .i32⟩ : BufTy).Contents (Elt F) → (⟨S16777216, .i1⟩ : BufTy).Contents (Elt F)),
    StableHlo.nullary main_c_7 (constantI S_ 32 256#32),
    StableHlo.unary main_c_7 main_v25 (broadcastInDim S16777216 ![] bcast_S_S16777216 : (⟨S_, .i32⟩ : BufTy).Contents (Elt F) → (⟨S16777216, .i32⟩ : BufTy).Contents (Elt F)),
    StableHlo.binary main_v6 main_v25 main_v26 (addi : (⟨S16777216, .i32⟩ : BufTy).Contents (Elt F) → (⟨S16777216, .i32⟩ : BufTy).Contents (Elt F) → (⟨S16777216, .i32⟩ : BufTy).Contents (Elt F)),
    StableHlo.ternary main_v24 main_v26 main_v6 main_v27 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.nullary main_c_8 (constantI S_ 32 0#32),
    StableHlo.unary main_c_8 main_v28 (broadcastInDim S16777216 ![] bcast_S_S16777216 : (⟨S_, .i32⟩ : BufTy).Contents (Elt F) → (⟨S16777216, .i32⟩ : BufTy).Contents (Elt F)),
    StableHlo.binary main_v10 main_v28 main_v29 (cmpi .slt : (⟨S16777216, .i32⟩ : BufTy).Contents (Elt F) → (⟨S16777216, .i32⟩ : BufTy).Contents (Elt F) → (⟨S16777216, .i1⟩ : BufTy).Contents (Elt F)),
    StableHlo.nullary main_c_9 (constantI S_ 32 64#32),
    StableHlo.unary main_c_9 main_v30 (broadcastInDim S16777216 ![] bcast_S_S16777216 : (⟨S_, .i32⟩ : BufTy).Contents (Elt F) → (⟨S16777216, .i32⟩ : BufTy).Contents (Elt F)),
    StableHlo.binary main_v10 main_v30 main_v31 (addi : (⟨S16777216, .i32⟩ : BufTy).Contents (Elt F) → (⟨S16777216, .i32⟩ : BufTy).Contents (Elt F) → (⟨S16777216, .i32⟩ : BufTy).Contents (Elt F)),
    StableHlo.ternary main_v29 main_v31 main_v10 main_v32 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v17 main_v33 (broadcastInDim S16777216x1 ![0] bcast_S16777216_S16777216x1_0 : (⟨S16777216, .i32⟩ : BufTy).Contents (Elt F) → (⟨S16777216x1, .i32⟩ : BufTy).Contents (Elt F)),
    StableHlo.unary main_v22 main_v34 (broadcastInDim S16777216x1 ![0] bcast_S16777216_S16777216x1_0 : (⟨S16777216, .i32⟩ : BufTy).Contents (Elt F) → (⟨S16777216x1, .i32⟩ : BufTy).Contents (Elt F)),
    StableHlo.unary main_v27 main_v35 (broadcastInDim S16777216x1 ![0] bcast_S16777216_S16777216x1_0 : (⟨S16777216, .i32⟩ : BufTy).Contents (Elt F) → (⟨S16777216x1, .i32⟩ : BufTy).Contents (Elt F)),
    StableHlo.unary main_v32 main_v36 (broadcastInDim S16777216x1 ![0] bcast_S16777216_S16777216x1_0 : (⟨S16777216, .i32⟩ : BufTy).Contents (Elt F) → (⟨S16777216x1, .i32⟩ : BufTy).Contents (Elt F)),
    StableHlo.nary ![main_v33, main_v34, main_v35, main_v36] main_v37 (fun u => concatenate S16777216x4 1 [⟨S16777216x1, u 0⟩, ⟨S16777216x1, u 1⟩, ⟨S16777216x1, u 2⟩, ⟨S16777216x1, u 3⟩] concatenates_S16777216x1_S16777216x1_S16777216x1_S16777216x1_S16777216x4_d1),
    StableHlo.ternary main_v12 main_v37 main_v11 main_v38 ((fun x i u => Host.scatterAdd scatter_S16x256x256x64_S16777216x4_S16777216_n_0123_0123_1 x i u) : (⟨S16x256x256x64, .f32⟩ : BufTy).Contents (Elt F) → (⟨S16777216x4, .i32⟩ : BufTy).Contents (Elt F) → (⟨S16777216, .f32⟩ : BufTy).Contents (Elt F) → (⟨S16x256x256x64, .f32⟩ : BufTy).Contents (Elt F)) ]

/-- @main's own operations before the first call, between the calls, and after the last. -/
abbrev ops1 : List (HloOp τ sig (Elt F)) :=
  [ StableHlo.reshape main_arg1 main_v0 rfl shapeCasts_S16x128x128x64_S16777216,
    StableHlo.nullary main_v1 (iotaInDim S16 32 0),
    StableHlo.unary main_v1 main_v2 (broadcastInDim S16x1048576 ![0] bcast_S16_S16x1048576_0 : (⟨S16, .i32⟩ : BufTy).Contents (Elt F) → (⟨S16x1048576, .i32⟩ : BufTy).Contents (Elt F)),
    StableHlo.reshape main_v2 main_v3 rfl shapeCasts_S16x1048576_S16777216,
    StableHlo.nullary main_c (constantI S_ 32 16384#32) ]
abbrev ops2 : List (HloOp τ sig (Elt F)) :=
  [ StableHlo.nullary main_c_0 (constantI S_ 32 64#32) ]
abbrev ops3 : List (HloOp τ sig (Elt F)) :=
  [ StableHlo.nullary main_c_1 (constantI S_ 32 256#32) ]
abbrev ops4 : List (HloOp τ sig (Elt F)) :=
  [ StableHlo.nullary main_v7 (iotaInDim S64 32 0),
    StableHlo.reshape main_v7 main_v8 rfl shapeCasts_S64_S1x64,
    StableHlo.unary main_v8 main_v9 (broadcastInDim S262144x64 ![0, 1] bcast_S1x64_S262144x64_0_1 : (⟨S1x64, .i32⟩ : BufTy).Contents (Elt F) → (⟨S262144x64, .i32⟩ : BufTy).Contents (Elt F)),
    StableHlo.reshape main_v9 main_v10 rfl shapeCasts_S262144x64_S16777216,
    StableHlo.reshape main_arg0 main_v11 rfl shapeCasts_S16x128x128x64_S16777216,
    StableHlo.nullary main_cst (constant S_ .f32 0x00000000#32),
    StableHlo.unary main_cst main_v12 (broadcastInDim S16x256x256x64 ![] bcast_S_S16x256x256x64 : (⟨S_, .f32⟩ : BufTy).Contents (Elt F) → (⟨S16x256x256x64, .f32⟩ : BufTy).Contents (Elt F)),
    StableHlo.nullary main_c_2 (constantI S_ 32 0#32),
    StableHlo.unary main_c_2 main_v13 (broadcastInDim S16777216 ![] bcast_S_S16777216 : (⟨S_, .i32⟩ : BufTy).Contents (Elt F) → (⟨S16777216, .i32⟩ : BufTy).Contents (Elt F)),
    StableHlo.binary main_v3 main_v13 main_v14 (cmpi .slt : (⟨S16777216, .i32⟩ : BufTy).Contents (Elt F) → (⟨S16777216, .i32⟩ : BufTy).Contents (Elt F) → (⟨S16777216, .i1⟩ : BufTy).Contents (Elt F)),
    StableHlo.nullary main_c_3 (constantI S_ 32 16#32),
    StableHlo.unary main_c_3 main_v15 (broadcastInDim S16777216 ![] bcast_S_S16777216 : (⟨S_, .i32⟩ : BufTy).Contents (Elt F) → (⟨S16777216, .i32⟩ : BufTy).Contents (Elt F)),
    StableHlo.binary main_v3 main_v15 main_v16 (addi : (⟨S16777216, .i32⟩ : BufTy).Contents (Elt F) → (⟨S16777216, .i32⟩ : BufTy).Contents (Elt F) → (⟨S16777216, .i32⟩ : BufTy).Contents (Elt F)),
    StableHlo.ternary main_v14 main_v16 main_v3 main_v17 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.nullary main_c_4 (constantI S_ 32 0#32),
    StableHlo.unary main_c_4 main_v18 (broadcastInDim S16777216 ![] bcast_S_S16777216 : (⟨S_, .i32⟩ : BufTy).Contents (Elt F) → (⟨S16777216, .i32⟩ : BufTy).Contents (Elt F)),
    StableHlo.binary main_v4 main_v18 main_v19 (cmpi .slt : (⟨S16777216, .i32⟩ : BufTy).Contents (Elt F) → (⟨S16777216, .i32⟩ : BufTy).Contents (Elt F) → (⟨S16777216, .i1⟩ : BufTy).Contents (Elt F)),
    StableHlo.nullary main_c_5 (constantI S_ 32 256#32),
    StableHlo.unary main_c_5 main_v20 (broadcastInDim S16777216 ![] bcast_S_S16777216 : (⟨S_, .i32⟩ : BufTy).Contents (Elt F) → (⟨S16777216, .i32⟩ : BufTy).Contents (Elt F)),
    StableHlo.binary main_v4 main_v20 main_v21 (addi : (⟨S16777216, .i32⟩ : BufTy).Contents (Elt F) → (⟨S16777216, .i32⟩ : BufTy).Contents (Elt F) → (⟨S16777216, .i32⟩ : BufTy).Contents (Elt F)),
    StableHlo.ternary main_v19 main_v21 main_v4 main_v22 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.nullary main_c_6 (constantI S_ 32 0#32),
    StableHlo.unary main_c_6 main_v23 (broadcastInDim S16777216 ![] bcast_S_S16777216 : (⟨S_, .i32⟩ : BufTy).Contents (Elt F) → (⟨S16777216, .i32⟩ : BufTy).Contents (Elt F)),
    StableHlo.binary main_v6 main_v23 main_v24 (cmpi .slt : (⟨S16777216, .i32⟩ : BufTy).Contents (Elt F) → (⟨S16777216, .i32⟩ : BufTy).Contents (Elt F) → (⟨S16777216, .i1⟩ : BufTy).Contents (Elt F)),
    StableHlo.nullary main_c_7 (constantI S_ 32 256#32),
    StableHlo.unary main_c_7 main_v25 (broadcastInDim S16777216 ![] bcast_S_S16777216 : (⟨S_, .i32⟩ : BufTy).Contents (Elt F) → (⟨S16777216, .i32⟩ : BufTy).Contents (Elt F)),
    StableHlo.binary main_v6 main_v25 main_v26 (addi : (⟨S16777216, .i32⟩ : BufTy).Contents (Elt F) → (⟨S16777216, .i32⟩ : BufTy).Contents (Elt F) → (⟨S16777216, .i32⟩ : BufTy).Contents (Elt F)),
    StableHlo.ternary main_v24 main_v26 main_v6 main_v27 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.nullary main_c_8 (constantI S_ 32 0#32),
    StableHlo.unary main_c_8 main_v28 (broadcastInDim S16777216 ![] bcast_S_S16777216 : (⟨S_, .i32⟩ : BufTy).Contents (Elt F) → (⟨S16777216, .i32⟩ : BufTy).Contents (Elt F)),
    StableHlo.binary main_v10 main_v28 main_v29 (cmpi .slt : (⟨S16777216, .i32⟩ : BufTy).Contents (Elt F) → (⟨S16777216, .i32⟩ : BufTy).Contents (Elt F) → (⟨S16777216, .i1⟩ : BufTy).Contents (Elt F)),
    StableHlo.nullary main_c_9 (constantI S_ 32 64#32),
    StableHlo.unary main_c_9 main_v30 (broadcastInDim S16777216 ![] bcast_S_S16777216 : (⟨S_, .i32⟩ : BufTy).Contents (Elt F) → (⟨S16777216, .i32⟩ : BufTy).Contents (Elt F)),
    StableHlo.binary main_v10 main_v30 main_v31 (addi : (⟨S16777216, .i32⟩ : BufTy).Contents (Elt F) → (⟨S16777216, .i32⟩ : BufTy).Contents (Elt F) → (⟨S16777216, .i32⟩ : BufTy).Contents (Elt F)),
    StableHlo.ternary main_v29 main_v31 main_v10 main_v32 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v17 main_v33 (broadcastInDim S16777216x1 ![0] bcast_S16777216_S16777216x1_0 : (⟨S16777216, .i32⟩ : BufTy).Contents (Elt F) → (⟨S16777216x1, .i32⟩ : BufTy).Contents (Elt F)),
    StableHlo.unary main_v22 main_v34 (broadcastInDim S16777216x1 ![0] bcast_S16777216_S16777216x1_0 : (⟨S16777216, .i32⟩ : BufTy).Contents (Elt F) → (⟨S16777216x1, .i32⟩ : BufTy).Contents (Elt F)),
    StableHlo.unary main_v27 main_v35 (broadcastInDim S16777216x1 ![0] bcast_S16777216_S16777216x1_0 : (⟨S16777216, .i32⟩ : BufTy).Contents (Elt F) → (⟨S16777216x1, .i32⟩ : BufTy).Contents (Elt F)),
    StableHlo.unary main_v32 main_v36 (broadcastInDim S16777216x1 ![0] bcast_S16777216_S16777216x1_0 : (⟨S16777216, .i32⟩ : BufTy).Contents (Elt F) → (⟨S16777216x1, .i32⟩ : BufTy).Contents (Elt F)),
    StableHlo.nary ![main_v33, main_v34, main_v35, main_v36] main_v37 (fun u => concatenate S16777216x4 1 [⟨S16777216x1, u 0⟩, ⟨S16777216x1, u 1⟩, ⟨S16777216x1, u 2⟩, ⟨S16777216x1, u 3⟩] concatenates_S16777216x1_S16777216x1_S16777216x1_S16777216x1_S16777216x4_d1),
    StableHlo.ternary main_v12 main_v37 main_v11 main_v38 ((fun x i u => Host.scatterAdd scatter_S16x256x256x64_S16777216x4_S16777216_n_0123_0123_1 x i u) : (⟨S16x256x256x64, .f32⟩ : BufTy).Contents (Elt F) → (⟨S16777216x4, .i32⟩ : BufTy).Contents (Elt F) → (⟨S16777216, .f32⟩ : BufTy).Contents (Elt F) → (⟨S16x256x256x64, .f32⟩ : BufTy).Contents (Elt F)) ]

set_option maxRecDepth 8192 in
/-- The list of operations is the seven pieces in order. -/
theorem ops_split : (ops : List (HloOp τ sig (Elt F)))
    = ops1 ++ (fdOps (.of main_v0) (.of main_c) main_call0 ++ (ops2 ++ (fdOps (.of main_v0) (.of main_c_0) main_call1
        ++ (ops3 ++ (remOps (.of main_v5) (.of main_c_1) main_call2 ++ ops4))))) := rfl

set_option maxRecDepth 4096 in
/-- @main is that straight line: each call's body is the straight line of the callee's operations, and lines run one
    after the other are their concatenation run as one. -/
theorem main_eq (c : Dev nD) : main (F := F) c = seq ops := by
  rw [ops_split]
  simp only [seq_append, ← fd_eq, ← rem_eq]
  simp only [main, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨reshape_bufs_sub .., nullary_bufs_sub .., unary_bufs_sub .., reshape_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., reshape_bufs_sub .., unary_bufs_sub .., reshape_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., ternary_bufs_sub ..⟩

/-- From any memory with zero counters, for any float values: every weakly fair execution of @main terminates, and
    every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefOut.lean ====
/-
  The reference program's result read off its run. The 103 operations are taken in their seven stretches (the
  program's own lines before, between and after the three calls, and each call's lines): after a stretch, from any
  contents, each buffer a later stretch reads holds the stretch's term of the contents before it, and every other
  buffer what it held. Composed, the result buffer holds `refOut` of the two arguments, which no operation writes.
-/
import proofs.«103951_j91044716741200_1_alg».proof.Proof.RefRun
import proofs.«103951_j91044716741200_1_alg».proof.Proof.RefTerm

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

-- The folds and searches the equations never look inside stay closed while two terms are compared.
attribute [local irreducible] Host.scatterAdd concatenate Host.divsi Host.remsi shapeCast

/-- Two stretches run one after the other. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-! ## The first stretch: the flattened index words, the batch numbers, the first divisor -/

theorem s1_v0 (W : Valuation τ sig (Elt Ideal)) : after (ops1 (F := Ideal)) W (main_v0 : DevRef τ sig) = flatIdx (W (main_arg1 : DevRef τ sig)) := by
  after_results_simp; rfl
theorem s1_v3 (W : Valuation τ sig (Elt Ideal)) : after (ops1 (F := Ideal)) W (main_v3 : DevRef τ sig) = batchCol := by
  after_results_simp; rfl
theorem s1_c (W : Valuation τ sig (Elt Ideal)) : after (ops1 (F := Ideal)) W (main_c : DevRef τ sig) = constantI S_ 32 16384#32 := by
  after_results_simp
theorem s1_arg0 (W : Valuation τ sig (Elt Ideal)) : after (ops1 (F := Ideal)) W (main_arg0 : DevRef τ sig) = W (main_arg0 : DevRef τ sig) := by
  after_results_simp

/-! ## The first floor division -/

theorem f0_v4 (W : Valuation τ sig (Elt Ideal)) : after (fdOps (F := Ideal) (.of main_v0) (.of main_c) main_call0) W (main_v4 : DevRef τ sig)
    = floorDiv (W (main_v0 : DevRef τ sig)) (W (main_c : DevRef τ sig)) := by
  after_results_simp; rfl
theorem f0_v0 (W : Valuation τ sig (Elt Ideal)) : after (fdOps (F := Ideal) (.of main_v0) (.of main_c) main_call0) W (main_v0 : DevRef τ sig) = W (main_v0 : DevRef τ sig) := by
  after_results_simp
theorem f0_v3 (W : Valuation τ sig (Elt Ideal)) : after (fdOps (F := Ideal) (.of main_v0) (.of main_c) main_call0) W (main_v3 : DevRef τ sig) = W (main_v3 : DevRef τ sig) := by
  after_results_simp
theorem f0_arg0 (W : Valuation τ sig (Elt Ideal)) : after (fdOps (F := Ideal) (.of main_v0) (.of main_c) main_call0) W (main_arg0 : DevRef τ sig) = W (main_arg0 : DevRef τ sig) := by
  after_results_simp

/-! ## The second divisor -/

theorem o2_c0 (W : Valuation τ sig (Elt Ideal)) : after (ops2 (F := Ideal)) W (main_c_0 : DevRef τ sig) = constantI S_ 32 64#32 := by
  after_results_simp
theorem o2_v0 (W : Valuation τ sig (Elt Ideal)) : after (ops2 (F := Ideal)) W (main_v0 : DevRef τ sig) = W (main_v0 : DevRef τ sig) := by
  after_results_simp
theorem o2_v3 (W : Valuation τ sig (Elt Ideal)) : after (ops2 (F := Ideal)) W (main_v3 : DevRef τ sig) = W (main_v3 : DevRef τ sig) := by
  after_results_simp
theorem o2_v4 (W : Valuation τ sig (Elt Ideal)) : after (ops2 (F := Ideal)) W (main_v4 : DevRef τ sig) = W (main_v4 : DevRef τ sig) := by
  after_results_simp
theorem o2_arg0 (W : Valuation τ sig (Elt Ideal)) : after (ops2 (F := Ideal)) W (main_arg0 : DevRef τ sig) = W (main_arg0 : DevRef τ sig) := by
  after_results_simp

/-! ## The second floor division -/

theorem f1_v5 (W : Valuation τ sig (Elt Ideal)) : after (fdOps (F := Ideal) (.of main_v0) (.of main_c_0) main_call1) W (main_v5 : DevRef τ sig)
    = floorDiv (W (main_v0 : DevRef τ sig)) (W (main_c_0 : DevRef τ sig)) := by
  after_results_simp; rfl
theorem f1_v3 (W : Valuation τ sig (Elt Ideal)) : after (fdOps (F := Ideal) (.of main_v0) (.of main_c_0) main_call1) W (main_v3 : DevRef τ sig) = W (main_v3 : DevRef τ sig) := by
  after_results_simp
theorem f1_v4 (W : Valuation τ sig (Elt Ideal)) : after (fdOps (F := Ideal) (.of main_v0) (.of main_c_0) main_call1) W (main_v4 : DevRef τ sig) = W (main_v4 : DevRef τ sig) := by
  after_results_simp
theorem f1_arg0 (W : Valuation τ sig (Elt Ideal)) : after (fdOps (F := Ideal) (.of main_v0) (.of main_c_0) main_call1) W (main_arg0 : DevRef τ sig) = W (main_arg0 : DevRef τ sig) := by
  after_results_simp

/-! ## The remainder's divisor -/

theorem o3_c1 (W : Valuation τ sig (Elt Ideal)) : after (ops3 (F := Ideal)) W (main_c_1 : DevRef τ sig) = constantI S_ 32 256#32 := by
  after_results_simp
theorem o3_v3 (W : Valuation τ sig (Elt Ideal)) : after (ops3 (F := Ideal)) W (main_v3 : DevRef τ sig) = W (main_v3 : DevRef τ sig) := by
  after_results_simp
theorem o3_v4 (W : Valuation τ sig (Elt Ideal)) : after (ops3 (F := Ideal)) W (main_v4 : DevRef τ sig) = W (main_v4 : DevRef τ sig) := by
  after_results_simp
theorem o3_v5 (W : Valuation τ sig (Elt Ideal)) : after (ops3 (F := Ideal)) W (main_v5 : DevRef τ sig) = W (main_v5 : DevRef τ sig) := by
  after_results_simp
theorem o3_arg0 (W : Valuation τ sig (Elt Ideal)) : after (ops3 (F := Ideal)) W (main_arg0 : DevRef τ sig) = W (main_arg0 : DevRef τ sig) := by
  after_results_simp

/-! ## The floor remainder -/

theorem r_v6 (W : Valuation τ sig (Elt Ideal)) : after (remOps (F := Ideal) (.of main_v5) (.of main_c_1) main_call2) W (main_v6 : DevRef τ sig)
    = floorRem (W (main_v5 : DevRef τ sig)) (W (main_c_1 : DevRef τ sig)) := by
  after_results_simp; rfl
theorem r_v3 (W : Valuation τ sig (Elt Ideal)) : after (remOps (F := Ideal) (.of main_v5) (.of main_c_1) main_call2) W (main_v3 : DevRef τ sig) = W (main_v3 : DevRef τ sig) := by
  after_results_simp
theorem r_v4 (W : Valuation τ sig (Elt Ideal)) : after (remOps (F := Ideal) (.of main_v5) (.of main_c_1) main_call2) W (main_v4 : DevRef τ sig) = W (main_v4 : DevRef τ sig) := by
  after_results_simp
theorem r_arg0 (W : Valuation τ sig (Elt Ideal)) : after (remOps (F := Ideal) (.of main_v5) (.of main_c_1) main_call2) W (main_arg0 : DevRef τ sig) = W (main_arg0 : DevRef τ sig) := by
  after_results_simp

/-! ## The last stretch: the lane numbers, the wraps, the table, the scatter -/

theorem s4_v38 (W : Valuation τ sig (Elt Ideal)) : after (ops4 (F := Ideal)) W (main_v38 : DevRef τ sig)
    = Host.scatterAdd (F := Ideal) scatter_S16x256x256x64_S16777216x4_S16777216_n_0123_0123_1
        (broadcastInDim S16x256x256x64 ![] bcast_S_S16x256x256x64 (constant (F := Ideal) S_ .f32 0x00000000#32))
        (concatenate S16777216x4 1
          [⟨S16777216x1, col (wrap 16#32 (W (main_v3 : DevRef τ sig)))⟩,
           ⟨S16777216x1, col (wrap 256#32 (W (main_v4 : DevRef τ sig)))⟩,
           ⟨S16777216x1, col (wrap 256#32 (W (main_v6 : DevRef τ sig)))⟩,
           ⟨S16777216x1, col (wrap 64#32 laneCol)⟩]
          concatenates_S16777216x1_S16777216x1_S16777216x1_S16777216x1_S16777216x4_d1)
        (shapeCast S16777216 (W (main_arg0 : DevRef τ sig)) shapeCasts_S16x128x128x64_S16777216) := by
  after_results_simp; rfl

/-! ## The arguments are written by no stretch -/

theorem s1_arg1 (W : Valuation τ sig (Elt Ideal)) : after (ops1 (F := Ideal)) W (main_arg1 : DevRef τ sig) = W (main_arg1 : DevRef τ sig) := by
  after_results_simp
theorem f0_arg1 (W : Valuation τ sig (Elt Ideal)) : after (fdOps (F := Ideal) (.of main_v0) (.of main_c) main_call0) W (main_arg1 : DevRef τ sig) = W (main_arg1 : DevRef τ sig) := by
  after_results_simp
theorem o2_arg1 (W : Valuation τ sig (Elt Ideal)) : after (ops2 (F := Ideal)) W (main_arg1 : DevRef τ sig) = W (main_arg1 : DevRef τ sig) := by
  after_results_simp
theorem f1_arg1 (W : Valuation τ sig (Elt Ideal)) : after (fdOps (F := Ideal) (.of main_v0) (.of main_c_0) main_call1) W (main_arg1 : DevRef τ sig) = W (main_arg1 : DevRef τ sig) := by
  after_results_simp
theorem o3_arg1 (W : Valuation τ sig (Elt Ideal)) : after (ops3 (F := Ideal)) W (main_arg1 : DevRef τ sig) = W (main_arg1 : DevRef τ sig) := by
  after_results_simp
theorem r_arg1 (W : Valuation τ sig (Elt Ideal)) : after (remOps (F := Ideal) (.of main_v5) (.of main_c_1) main_call2) W (main_arg1 : DevRef τ sig) = W (main_arg1 : DevRef τ sig) := by
  after_results_simp
theorem s4_arg1 (W : Valuation τ sig (Elt Ideal)) : after (ops4 (F := Ideal)) W (main_arg1 : DevRef τ sig) = W (main_arg1 : DevRef τ sig) := by
  after_results_simp
theorem s4_arg0 (W : Valuation τ sig (Elt Ideal)) : after (ops4 (F := Ideal)) W (main_arg0 : DevRef τ sig) = W (main_arg0 : DevRef τ sig) := by
  after_results_simp

/-! ## The whole line -/

/-- The result buffer after the 103 operations, from any contents: `refOut` of the two arguments' contents. -/
theorem out_eq (V : Valuation τ sig (Elt Ideal)) :
    after (ops (F := Ideal)) V (main_v38 : DevRef τ sig) = refOut (V (main_arg0 : DevRef τ sig)) (V (main_arg1 : DevRef τ sig)) := by
  rw [ops_split]
  simp only [after_app]
  rw [s4_v38]
  rw [r_v3, r_v4, r_v6, r_arg0]
  rw [o3_v3, o3_v4, o3_v5, o3_c1, o3_arg0]
  rw [f1_v3, f1_v4, f1_v5, f1_arg0]
  rw [o2_v3, o2_v4, o2_v0, o2_c0, o2_arg0]
  rw [f0_v3, f0_v0, f0_v4, f0_arg0]
  rw [s1_v3, s1_v0, s1_c, s1_arg0]
  rfl

/-- No operation writes the first argument. -/
theorem arg0_eq (V : Valuation τ sig (Elt Ideal)) :
    after (ops (F := Ideal)) V (main_arg0 : DevRef τ sig) = V (main_arg0 : DevRef τ sig) := by
  rw [ops_split]
  simp only [after_app]
  rw [s4_arg0, r_arg0, o3_arg0, f1_arg0, o2_arg0, f0_arg0, s1_arg0]

/-- No operation writes the second argument. -/
theorem arg1_eq (V : Valuation τ sig (Elt Ideal)) :
    after (ops (F := Ideal)) V (main_arg1 : DevRef τ sig) = V (main_arg1 : DevRef τ sig) := by
  rw [ops_split]
  simp only [after_app]
  rw [s4_arg1, r_arg1, o3_arg1, f1_arg1, o2_arg1, f0_arg1, s1_arg1]

/-- From any memory with zero counters: every weakly fair execution of the reference program terminates, the result
    buffer holds `refOut` of the two arguments, and the arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c main_v38).trans (out_eq (launchContents m c)),
       (h c main_arg0).trans (arg0_eq (launchContents m c)),
       (h c main_arg1).trans (arg1_eq (launchContents m c))⟩)
    (run_main (F := Ideal) m ρ)

end Cert.ReferenceIdeal.RefValue

end
-- ==== Proof.lean ====
/-
  Max-unpooling by scatter-add: the kernel's program against the reference, over the extended reals.

  Inputs: features f32[16,128,128,64] and index words i32[16,128,128,64], every feature finite and every index word in
  [0, 4194304) (a flattened position in one batch's 256×256×64 output volume). Update j — the entry of the
  flattened inputs at row-major position j, with index word x — is sent

    by the reference to the coordinates (j / 1048576, x / 16384, (x / 64) mod 256, j mod 64) of a zero array
    f32[16,256,256,64] (floor divisions and the floor remainder, each coordinate wrapped once if negative), and

    by the kernel's program to the flat position (x / 64)·64 + j mod 64 + (j / 1048576)·4194304 of 67108864 zeros
    (the Pallas kernel computes this word block by block; the host wraps it once if negative, scatter-adds along
    the flat array and reshapes to [16,256,256,64]).

  A scatter-add at exact arithmetic leaves at each element the sum of the updates landing there. Since
  x / 64 = (x / 16384)·256 + (x / 64) mod 256 for 0 ≤ x, the flat position is the row-major position of the four
  coordinates, and a position below 16·256·256·64 has exactly one reading in the mixed radix (16, 256, 256, 64): so
  an update lands at the flat position of an element in one program exactly when it lands at that element in the
  other, and the two results are sums over the same updates. No property of the features beyond being extended
  reals is used; the range of the index words is.

  The modules: Words (the scalar 32-bit words each program computes at one update), WordsArith (their values for an
  index word in range), PreRange (the precondition gives the range at every index), Scatter (where updates land, and
  the comparison of the two sums), KernelFrame / KernelIdealFrame (the kernel program runs, arguments unchanged),
  KerIdx / KerValue (the kernel program's result as one function of the arguments), RefTerm / RefRun / RefOut / RefRead (the
  reference's result as a term, its run, the run read at the result, and its index operand read at an index).
-/
import proofs.«103951_j91044716741200_1_alg».proof.Defs
import proofs.«103951_j91044716741200_1_alg».proof.Proof.Gen.Kernel
import proofs.«103951_j91044716741200_1_alg».proof.Proof.Gen.KernelIdeal
import proofs.«103951_j91044716741200_1_alg».proof.Proof.Gen.ReferenceIdeal
import proofs.«103951_j91044716741200_1_alg».proof.Proof.Gen.Pre_finite_inputs
import proofs.«103951_j91044716741200_1_alg».proof.Proof.KernelFrame
import proofs.«103951_j91044716741200_1_alg».proof.Proof.KernelIdealFrame
import proofs.«103951_j91044716741200_1_alg».proof.Proof.Words
import proofs.«103951_j91044716741200_1_alg».proof.Proof.WordsArith
import proofs.«103951_j91044716741200_1_alg».proof.Proof.PreRange
import proofs.«103951_j91044716741200_1_alg».proof.Proof.Scatter
import proofs.«103951_j91044716741200_1_alg».proof.Proof.KerIdx
import proofs.«103951_j91044716741200_1_alg».proof.Proof.KerValue
import proofs.«103951_j91044716741200_1_alg».proof.Proof.RefTerm
import proofs.«103951_j91044716741200_1_alg».proof.Proof.RefRead
import proofs.«103951_j91044716741200_1_alg».proof.Proof.RefRun
import proofs.«103951_j91044716741200_1_alg».proof.Proof.RefOut
import Idealize.ShloMosaic.Lib.ValueIdx
import Idealize.ShloMosaic.Adequacy
import Idealize.ShloMosaic.Init

noncomputable section
open Idealize.ShloMosaic Idealize.ShloMosaic.TcCoe Idealize.SL.Sem

namespace Cert.Proof

open Idealize.ShloMosaic.ValueIdx Cert.Unpool

/-- The two results are one array. Element `o` of either is zero plus the sum of the features whose update lands at
    `o`; update `j` with index word `x` (0 ≤ x < 4194304) lands, in the reference, at the coordinates
    (j / 1048576, x / 16384, (x / 64) mod 256, j mod 64), and in the kernel's program at the flat position
    (j / 1048576)·4194304 + (x / 64)·64 + j mod 64, which is the row-major position of those coordinates because
    x / 64 = (x / 16384)·256 + (x / 64) mod 256. -/
theorem out_eq (f : FVec Ideal Cert.KernelIdeal.S16x128x128x64 .f32) (a : IVec Cert.KernelIdeal.S16x128x128x64 32)
    (hrange : ∀ i, 0 ≤ (a i).toInt ∧ (a i).toInt < 4194304) :
    Cert.KernelIdeal.KerValue.kerOut f a = Cert.ReferenceIdeal.RefValue.refOut f a := by
  funext o
  show Host.scatterAdd (F := Ideal) Cert.KernelIdeal.scatter_S67108864_S16777216x1_S16777216_n_0_0_1
      (broadcastInDim Cert.KernelIdeal.S67108864 ![] Cert.KernelIdeal.Facts₀.bcast_S_S67108864 (constant (F := Ideal) Cert.KernelIdeal.S_ .f32 0x00000000#32))
      (Cert.KernelIdeal.KerValue.kerIdx a)
      (shapeCast Cert.KernelIdeal.S16777216 f Cert.KernelIdeal.Facts₀.shapeCasts_S16x128x128x64_S16777216)
      (Shape.reshapeEquiv Cert.KernelIdeal.Facts₀.shapeCasts_S67108864_S16x256x256x64 o)
    = Host.scatterAdd (F := Ideal) Cert.ReferenceIdeal.scatter_S16x256x256x64_S16777216x4_S16777216_n_0123_0123_1
      (broadcastInDim Cert.ReferenceIdeal.S16x256x256x64 ![] Cert.ReferenceIdeal.Facts₀.bcast_S_S16x256x256x64 (constant (F := Ideal) Cert.ReferenceIdeal.S_ .f32 0x00000000#32))
      (Cert.ReferenceIdeal.RefValue.refIdx a)
      (shapeCast Cert.ReferenceIdeal.S16777216 f Cert.ReferenceIdeal.Facts₀.shapeCasts_S16x128x128x64_S16777216) o
  rw [scatterAdd_ideal, scatterAdd_ideal]
  refine scatter_bridge _ _ _ _ _ _ _ (Shape.reshapeEquiv Cert.KernelIdeal.Facts₀.shapeCasts_S67108864_S16x256x256x64)
    (fun _ => rfl) ?_ o
  intro j o
  obtain ⟨j, rfl⟩ : ∃ j0 : Fin 16777216, j = ix1 j0 := ⟨j 0, eq_ix1 j⟩
  show (dF Cert.KernelIdeal.Facts₀.scatter_S67108864_S16777216x1_S16777216_n_0_0_1_wf).resultIdx? (ix1 j) (Cert.KernelIdeal.KerValue.kerIdx a)
        = some (Shape.reshapeEquiv Cert.KernelIdeal.Facts₀.shapeCasts_S67108864_S16x256x256x64 o)
      ↔ (dO Cert.ReferenceIdeal.Facts₀.scatter_S16x256x256x64_S16777216x4_S16777216_n_0123_0123_1_wf).resultIdx? (ix1 j) (Cert.ReferenceIdeal.RefValue.refIdx a)
        = some o
  have hx := hrange (Shape.reshapeEquiv Cert.KernelIdeal.Facts₀.shapeCasts_S16x128x128x64_S16777216 (ix1 j))
  have hb : j.val / 1048576 < 16 := by have := j.isLt; omega
  have hc : j.val % 64 < 64 := Nat.mod_lt _ (by decide)
  generalize hxe : shapeCast Cert.KernelIdeal.S16777216 a Cert.KernelIdeal.Facts₀.shapeCasts_S16x128x128x64_S16777216 (ix1 j) = x
  have hx' : 0 ≤ x.toInt ∧ x.toInt < 4194304 := hxe ▸ hx
  have e0 := Cert.ReferenceIdeal.RefValue.refIdx_apply0 a j
  have e1 := Cert.ReferenceIdeal.RefValue.refIdx_apply1 a j
  have e2 := Cert.ReferenceIdeal.RefValue.refIdx_apply2 a j
  have e3 := Cert.ReferenceIdeal.RefValue.refIdx_apply3 a j
  have ek := Cert.KernelIdeal.KerValue.kerIdx_apply a j
  rw [show shapeCast Cert.ReferenceIdeal.S16777216 a Cert.ReferenceIdeal.Facts₀.shapeCasts_S16x128x128x64_S16777216 (ix1 j) = x from hxe] at e1 e2
  rw [hxe] at ek
  refine lands_iff _ _ (Cert.KernelIdeal.KerValue.kerIdx a) (Cert.ReferenceIdeal.RefValue.refIdx a) j (j.val / 1048576)
    (x.toNat / 16384) (x.toNat / 64 % 256) (j.val % 64) ?_ ?_ ?_ ?_ ?_ hb ?_ ?_ hc _ o
  · rw [ek, kerWord_toInt x _ _ hx'.1 hx'.2 hb hc]
    congr 1
    omega
  · rw [e0]; exact batch_toInt _ hb
  · rw [e1]; exact row_toInt x hx'.1 hx'.2
  · rw [e2]; exact col_toInt x hx'.1 hx'.2
  · rw [e3]; exact lane_toInt _ hc
  · have h1 := hx'.1
    have h2 := hx'.2
    have hlt : x.toNat < 4294967296 := x.isLt
    by_cases hm : 2 * x.toNat < 2 ^ 32
    · rw [BitVec.toInt_eq_toNat_cond, if_pos hm] at h2; omega
    · rw [BitVec.toInt_eq_toNat_cond, if_neg hm] at h1; omega
  · exact Nat.mod_lt _ (by decide)

/-- The kernel's program as printed runs and leaves its arguments unchanged. -/
theorem frame_k : Cert.frame_Kernel := fun m ρ _ => Cert.Kernel.GenP.frame m ρ
/-- So does its idealization. -/
theorem frame_ki : Cert.frame_KernelIdeal := fun m ρ _ => Cert.KernelIdeal.GenP.frame m ρ
/-- The reference is a straight line of host operations: it runs, and writes neither argument. -/
theorem frame_ri : Cert.frame_ReferenceIdeal := fun m ρ _ =>
  (θ_run Cert.ReferenceIdeal.defs _ _).mono (fun _ h c => (h c).2) (Cert.ReferenceIdeal.RefValue.run m ρ)
/-- The idealization rewrote no operation: there is nothing to preserve. -/
theorem preserves : Cert.preserves_Kernel_KernelIdeal := trivial

/-- Run from memories that agree on the arguments, both programs end with the array `kerOut` of the arguments: the
    kernel's program by its value, the reference by its run and `out_eq`, the index words in range by the precondition. -/
theorem algebraic : Cert.algebraic_KernelIdeal_ReferenceIdeal := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  exact (out_eq _ _ (Cert.Unpool.Pre.range_of_pre _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
